-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x100 : Shape := ⟨2, ![50000, 100]⟩
abbrev S2x800000 : Shape := ⟨2, ![2, 800000]⟩
abbrev S800000 : Shape := ⟨1, ![800000]⟩
abbrev S50000 : Shape := ⟨1, ![50000]⟩
abbrev S100 : Shape := ⟨1, ![100]⟩
abbrev S128 : Shape := ⟨1, ![128]⟩
abbrev S100x128 : Shape := ⟨2, ![100, 128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S50000x100 : S_.BroadcastsInDim S50000x100 (![] : Fin 0 → Fin S50000x100.rank)
  reducesTo_S50000x100_S_d0_1 : S50000x100.ReducesTo [0, 1] S_
  h_S_ : 0 < S_.numel
  bcast_S_S800000 : S_.BroadcastsInDim S800000 (![] : Fin 0 → Fin S800000.rank)
  reducesTo_S800000_S_d0 : S800000.ReducesTo [0] S_
  bcast_S_S100 : S_.BroadcastsInDim S100 (![] : Fin 0 → Fin S100.rank)
  reducesTo_S100_S_d0 : S100.ReducesTo [0] S_
  bcast_S_S128 : S_.BroadcastsInDim S128 (![] : Fin 0 → Fin S128.rank)
  reducesTo_S128_S_d0 : S128.ReducesTo [0] S_
  bcast_S_S100x128 : S_.BroadcastsInDim S100x128 (![] : Fin 0 → Fin S100x128.rank)
  reducesTo_S100x128_S_d0_1 : S100x128.ReducesTo [0, 1] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S128x2 .f32) (main_arg17 : FVec F S2 .f32) (main_v63 : IVec S_ 1) (main_v67 : IVec S_ 1) : IVec S_ 1 :=
  let main_v68 : IVec S_ 1 := andi main_v63 main_v67
  let main_v69 : FVec F S128x2 .f32 := Host.absf main_arg16
  let main_cst_26 : FVec F S_ .f32 := constant S_ .f32 0x7F800000#32
  let main_v70 : FVec F S128x2 .f32 := broadcastInDim S128x2 ![] bcast_S_S128x2 main_cst_26
  let main_v71 : IVec S128x2 1 := cmpf .olt main_v69 main_v70
  let main_c_27 : IVec S_ 1 := constantI S_ 1 1#1
  let main_v72 : IVec S_ 1 := (fun x v => Host.reduce IntOp.andi x v reducesTo_S128x2_S_d0_1 h_S_) main_v71 main_c_27
  let main_v73 : IVec S_ 1 := andi main_v68 main_v72
  let main_v74 : FVec F S2 .f32 := Host.absf main_arg17
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  main_v78

def fn_part3 {F : FTy → Type} [FloatOps F] (main_arg13 : FVec F S128 .f32) (main_arg14 : FVec F S128x128 .f32) (main_arg15 : FVec F S128 .f32) (main_arg16 : FVec F S128x2 .f32) (main_arg17 : FVec F S2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S128 .f32) (main_arg10 : FVec F S100x128 .f32) (main_arg11 : FVec F S128 .f32) (main_arg12 : FVec F S128x128 .f32) (main_arg13 : FVec F S128 .f32) (main_arg14 : FVec F S128x128 .f32) (main_arg15 : FVec F S128 .f32) (main_arg16 : FVec F S128x2 .f32) (main_arg17 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S100x128 .f32 := Host.absf main_arg10
  let main_cst_14 : FVec F S_ .f32 := constant S_ .f32 0x7F800000#32
  let main_v40 : FVec F S100x128 .f32 := broadcastInDim S100x128 ![] bcast_S_S100x128 main_cst_14
  let main_v41 : IVec S100x128 1 := cmpf .olt main_v39 main_v40
  let main_c_15 : IVec S_ 1 := constantI S_ 1 1#1
  let main_v42 : IVec S_ 1 := (fun x v => Host.reduce IntOp.andi x v reducesTo_S100x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_v48 main_v49 main_v50

def fn_part1 {F : FTy → Type} [FloatOps F] (main_arg6 : FVec F S128 .f32) (main_arg7 : FVec F S128 .f32) (main_arg8 : FVec F S128 .f32) (main_arg9 : FVec F S128 .f32) (main_arg10 : FVec F S100x128 .f32) (main_arg11 : FVec F S128 .f32) (main_arg12 : FVec F S128x128 .f32) (main_arg13 : FVec F S128 .f32) (main_arg14 : FVec F S128x128 .f32) (main_arg15 : FVec F S128 .f32) (main_arg16 : FVec F S128x2 .f32) (main_arg17 : FVec F S2 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x100 .f32) (main_arg1 : IVec S2x800000 32) (main_arg2 : FVec F S800000 .f32) (main_arg3 : IVec S50000 32) (main_arg4 : FVec F S100 .f32) (main_arg5 : FVec F S100 .f32) (main_arg6 : FVec F S128 .f32) (main_arg7 : FVec F S128 .f32) (main_arg8 : FVec F S128 .f32) (main_arg9 : FVec F S128 .f32) (main_arg10 : FVec F S100x128 .f32) (main_arg11 : FVec F S128 .f32) (main_arg12 : FVec F S128x128 .f32) (main_arg13 : FVec F S128 .f32) (main_arg14 : FVec F S128x128 .f32) (main_arg15 : FVec F S128 .f32) (main_arg16 : FVec F S128x2 .f32) (main_arg17 : FVec F S2 .f32) : IVec S_ 1 :=
  let main_v0 : FVec F S50000x100 .f32 := Host.absf main_arg0
  let main_cst : FVec F S_ .f32 := constant S_ .f32 0x7F800000#32
  let main_v1 : FVec F S50000x100 .f32 := broadcastInDim S50000x100 ![] bcast_S_S50000x100 main_cst
  let main_v2 : IVec S50000x100 1 := cmpf .olt main_v0 main_v1
  let main_c : IVec S_ 1 := constantI S_ 1 1#1
  let main_v3 : IVec S_ 1 := (fun x v => Host.reduce IntOp.andi x v reducesTo_S50000x100_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S100 .f32 := Host.absf main_arg4
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100 .f32 := Host.absf main_arg5
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x100 : Shape := ⟨2, ![50000, 100]⟩
abbrev S2x800000 : Shape := ⟨2, ![2, 800000]⟩
abbrev S800000 : Shape := ⟨1, ![800000]⟩
abbrev S50000 : Shape := ⟨1, ![50000]⟩
abbrev S100 : Shape := ⟨1, ![100]⟩
abbrev S128 : Shape := ⟨1, ![128]⟩
abbrev S100x128 : Shape := ⟨2, ![100, 128]⟩
abbrev S128x128 : Shape := ⟨2, ![128, 128]⟩
abbrev S128x2 : Shape := ⟨2, ![128, 2]⟩
abbrev S2 : Shape := ⟨1, ![2]⟩
abbrev S1x800000 : Shape := ⟨2, ![1, 800000]⟩
abbrev S50000x128 : Shape := ⟨2, ![50000, 128]⟩
abbrev S5000x100 : Shape := ⟨2, ![5000, 100]⟩
abbrev S5000x128 : Shape := ⟨2, ![5000, 128]⟩
abbrev S5000 : Shape := ⟨1, ![5000]⟩
abbrev S5000x1 : Shape := ⟨2, ![5000, 1]⟩
abbrev S1x100 : Shape := ⟨2, ![1, 100]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S512x128 : Shape := ⟨2, ![512, 128]⟩
abbrev S50000x1 : Shape := ⟨2, ![50000, 1]⟩
abbrev S512x1 : Shape := ⟨2, ![512, 1]⟩
abbrev S512x2 : Shape := ⟨2, ![512, 2]⟩
abbrev S1x2 : Shape := ⟨2, ![1, 2]⟩

abbrev nBuf : Space → Nat
  | .hbm => 110
  | .vmem => 21
  | .smem => 0
  | _ => 0

abbrev bufTy : (tb : Table) → Fin (tcTables nBuf tb) → BufTy
  | .hbm, ⟨0, _⟩ => ⟨S50000x100, .f32⟩
  | .hbm, ⟨1, _⟩ => ⟨S2x800000, .i32⟩
  | .hbm, ⟨2, _⟩ => ⟨S800000, .f32⟩
  | .hbm, ⟨3, _⟩ => ⟨S50000, .i32⟩
  | .hbm, ⟨4, _⟩ => ⟨S100, .f32⟩
  | .hbm, ⟨5, _⟩ => ⟨S100, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S100x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x2, .f32⟩
  | .hbm, ⟨17, _⟩ => ⟨S2, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S50000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S800000x1, .f32⟩
  | .hbm, ⟨33, _⟩ => ⟨S800000x128, .f32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S800000x1, .f32⟩
  | .hbm, ⟨56, _⟩ => ⟨S800000x128, .f32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S800000x1, .f32⟩
  | .hbm, ⟨79, _⟩ => ⟨S800000x128, .f32⟩
  | .hbm, ⟨80, _⟩ => ⟨S800000x128, .f32⟩
  | .hbm, ⟨81, _⟩ => ⟨S_, .f32⟩
  | .hbm, ⟨82, _⟩ => ⟨S50000x128, .f32⟩
  | .hbm, ⟨83, _⟩ => ⟨S800000x1, .i32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S512x128, .f32⟩
  | .hbm, ⟨93, _⟩ => ⟨S50000x1, .i32⟩
  | .hbm, ⟨94, _⟩ => ⟨S512x128, .f32⟩
  | .hbm, ⟨95, _⟩ => ⟨S_, .f32⟩
  | .hbm, ⟨96, _⟩ => ⟨S50000x1, .f32⟩
  | .hbm, ⟨97, _⟩ => ⟨S_, .f32⟩
  | .hbm, ⟨98, _⟩ => ⟨S512x1, .f32⟩
  | .hbm, ⟨99, _⟩ => ⟨S50000x1, .i32⟩
  | .hbm, ⟨100, _⟩ => ⟨S512x1, .f32⟩
  | .hbm, ⟨101, _⟩ => ⟨S_, .f32⟩
  | .hbm, ⟨102, _⟩ => ⟨S512x1, .f32⟩
  | .hbm, ⟨103, _⟩ => ⟨S512x1, .f32⟩
  | .hbm, ⟨104, _⟩ => ⟨S512x128, .f32⟩
  | .hbm, ⟨105, _⟩ => ⟨S512x128, .f32⟩
  | .hbm, ⟨106, _⟩ => ⟨S512x2, .f32⟩
  | .hbm, ⟨107, _⟩ => ⟨S1x2, .f32⟩
  | .hbm, ⟨108, _⟩ => ⟨S512x2, .f32⟩
  | .hbm, ⟨109, _⟩ => ⟨S512x2, .f32⟩
  | .local _ .vmem, ⟨0, _⟩ => ⟨S5000x100, .f32⟩
  | .local _ .vmem, ⟨1, _⟩ => ⟨S5000x100, .f32⟩
  | .local _ .vmem, ⟨2, _⟩ => ⟨S100, .f32⟩
  | .local _ .vmem, ⟨3, _⟩ => ⟨S100, .f32⟩
  | .local _ .vmem, ⟨4, _⟩ => ⟨S100x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128, .f32⟩
  | .local _ .vmem, ⟨10, _⟩ => ⟨S128, .f32⟩
  | .local _ .vmem, ⟨11, _⟩ => ⟨S128x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128, .f32⟩
  | .local _ .vmem, ⟨17, _⟩ => ⟨S128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | _, _ => ⟨S50000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_call0_cst : Ref sig .tc := ⟨.hbm, 42, rfl⟩
abbrev main_call0_v0 : Ref sig .tc := ⟨.hbm, 43, rfl⟩
abbrev main_v21 : Ref sig .tc := ⟨.hbm, 44, rfl⟩
abbrev main_v22 : Ref sig .tc := ⟨.hbm, 45, rfl⟩
abbrev main_c_1 : Ref sig .tc := ⟨.hbm, 46, rfl⟩
abbrev main_v23 : Ref sig .tc := ⟨.hbm, 47, rfl⟩
abbrev main_v24 : Ref sig .tc := ⟨.hbm, 48, rfl⟩
abbrev main_c_2 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call1_cst : Ref sig .tc := ⟨.hbm, 65, rfl⟩
abbrev main_call1_v0 : Ref sig .tc := ⟨.hbm, 66, rfl⟩
abbrev main_v39 : Ref sig .tc := ⟨.hbm, 67, rfl⟩
abbrev main_v40 : Ref sig .tc := ⟨.hbm, 68, rfl⟩
abbrev main_c_4 : Ref sig .tc := ⟨.hbm, 69, rfl⟩
abbrev main_v41 : Ref sig .tc := ⟨.hbm, 70, rfl⟩
abbrev main_v42 : Ref sig .tc := ⟨.hbm, 71, rfl⟩
abbrev main_c_5 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_6 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_call2_cst : Ref sig .tc := ⟨.hbm, 88, rfl⟩
abbrev main_call2_v0 : Ref sig .tc := ⟨.hbm, 89, rfl⟩
abbrev main_v57 : Ref sig .tc := ⟨.hbm, 90, rfl⟩
abbrev main_cst_7 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_8 : Ref sig .tc := ⟨.hbm, 95, rfl⟩
abbrev main_v61 : Ref sig .tc := ⟨.hbm, 96, rfl⟩
abbrev main_cst_9 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_10 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x100_S5000x100_0_0 : ∀ a, (![0, 0] : Fin 2 → Nat) a + S5000x100.size a ≤ S5000x100.size a
  h_S5000x100 : 0 < S5000x100.numel
  reduces_S5000x100_S5000 : S5000x100.Reduces [1] S5000
  shapeCasts_S5000_S5000x1 : S5000.ShapeCasts S5000x1
  broadcasts_S5000x1_S5000x100 : S5000x1.Broadcasts S5000x100
  inb_S100_S100_0 : ∀ a, (![0] : Fin 1 → Nat) a + S100.size a ≤ S100.size a
  h_S100 : 0 < S100.numel
  shapeCasts_S100_S1x100 : S100.ShapeCasts S1x100
  broadcasts_S1x100_S5000x100 : S1x100.Broadcasts S5000x100
  bitsLt_bf16_f32 : FTy.bits .bf16 < FTy.bits .f32
  inb_S100x128_S100x128_0_0 : ∀ a, (![0, 0] : Fin 2 → Nat) a + S100x128.size a ≤ S100x128.size a
  h_S100x128 : 0 < S100x128.numel
  inb_S5000x128_S5000x128_0_0 : ∀ a, (![0, 0] : Fin 2 → Nat) a + S5000x128.size a ≤ S5000x128.size a
  h_S5000x128 : 0 < S5000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  reduces_S5000x128_S5000 : S5000x128.Reduces [1] S5000
  broadcasts_S5000x1_S5000x128 : S5000x1.Broadcasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S512x128 : S_.BroadcastsInDim S512x128 (![] : Fin 0 → Fin S512x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  dot_S5000x100_S100x128_S5000x128_1_0_0_1_n_n_wf : DotDims.WF S5000x100 S100x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S512x128_S50000x1_S50000x128_1_0_0_1_wf : ScatterDims.WF S512x128 S50000x1 S50000x128 [1] [0] [0] 1
  scatter_S512x1_S50000x1_S50000x1_1_0_0_1_wf : ScatterDims.WF S512x1 S50000x1 S50000x1 [1] [0] [0] 1
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S50000x100.size a
  hwx0_0 : ∀ i : grid0.Coords, EltTy.bits .f32 = 32 ∨ (Rect.block (s := S50000x100) S5000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100.size a ≤ S100.size a
  hwx0_1 : ∀ i : grid0.Coords, EltTy.bits .f32 = 32 ∨ (Rect.block (s := S100) S100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100.size a ≤ S100.size a
  hwx0_2 : ∀ i : grid0.Coords, EltTy.bits .f32 = 32 ∨ (Rect.block (s := S100) S100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x128.size a ≤ S100x128.size a
  hwx0_3 : ∀ i : grid0.Coords, EltTy.bits .f32 = 32 ∨ (Rect.block (s := S100x128) S100x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)

variable [Facts₀]

def dot_S5000x100_S100x128_S5000x128_1_0_0_1_n_n : DotDims S5000x100 S100x128 S5000x128 where
  lhsContracting := [1]
  rhsContracting := [0]
  lhsNonContracting := [0]
  rhsNonContracting := [1]
  lhsBatch := []
  rhsBatch := []
  wf := dot_S5000x100_S100x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_arg0) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S100x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x100 : Shape := ⟨2, ![50000, 100]⟩
abbrev S2x800000 : Shape := ⟨2, ![2, 800000]⟩
abbrev S800000 : Shape := ⟨1, ![800000]⟩
abbrev S50000 : Shape := ⟨1, ![50000]⟩
abbrev S100 : Shape := ⟨1, ![100]⟩
abbrev S128 : Shape := ⟨1, ![128]⟩
abbrev S100x128 : Shape := ⟨2, ![100, 128]⟩
abbrev S128x128 : Shape := ⟨2, ![128, 128]⟩
abbrev S128x2 : Shape := ⟨2, ![128, 2]⟩
abbrev S2 : Shape := ⟨1, ![2]⟩
abbrev S1x800000 : Shape := ⟨2, ![1, 800000]⟩
abbrev S_ : Shape := ⟨0, ![]⟩
abbrev S50000x1 : Shape := ⟨2, ![50000, 1]⟩
abbrev S1x100 : Shape := ⟨2, ![1, 100]⟩
abbrev S50000x128 : Shape := ⟨2, ![50000, 128]⟩
abbrev S800000x1 : Shape := ⟨2, ![800000, 1]⟩
abbrev S800000x128 : Shape := ⟨2, ![800000, 128]⟩
abbrev S1x128 : Shape := ⟨2, ![1, 128]⟩
abbrev S512x128 : Shape := ⟨2, ![512, 128]⟩
abbrev S512x1 : Shape := ⟨2, ![512, 1]⟩
abbrev S512x2 : Shape := ⟨2, ![512, 2]⟩
abbrev S1x2 : Shape := ⟨2, ![1, 2]⟩

abbrev nBuf : Space → Nat
  | .hbm => 197
  | .vmem => 0
  | .smem => 0
  | _ => 0

abbrev hbmTy0_0 (i : Nat) : BufTy := match i % 128 with
  | 0 => ⟨S50000x100, .f32⟩
  | 1 => ⟨S2x800000, .i32⟩
  | 2 => ⟨S800000, .f32⟩
  | 3 => ⟨S50000, .i32⟩
  | 4 => ⟨S100, .f32⟩
  | 5 => ⟨S100, .f32⟩
  | 6 => ⟨S128, .f32⟩
  | 7 => ⟨S128, .f32⟩
  | 8 => ⟨S128, .f32⟩
  | 9 => ⟨S128, .f32⟩
  | 10 => ⟨S100x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x2, .f32⟩
  | 17 => ⟨S2, .f32⟩
  | 18 => ⟨S1x800000, .i32⟩
  | 19 => ⟨S800000, .i32⟩
  | 20 => ⟨S1x800000, .i32⟩
  | 21 => ⟨S800000, .i32⟩
  | 22 => ⟨S_, .f32⟩
  | 23 => ⟨S50000, .f32⟩
  | 24 => ⟨S50000x1, .f32⟩
  | 25 => ⟨S_, .f32⟩
  | 26 => ⟨S50000x1, .f32⟩
  | 27 => ⟨S50000x1, .f32⟩
  | 28 => ⟨S50000x100, .f32⟩
  | 29 => ⟨S50000x100, .f32⟩
  | 30 => ⟨S50000x100, .f32⟩
  | 31 => ⟨S_, .f32⟩
  | 32 => ⟨S50000, .f32⟩
  | 33 => ⟨S50000x1, .f32⟩
  | 34 => ⟨S_, .f32⟩
  | 35 => ⟨S50000x1, .f32⟩
  | 36 => ⟨S50000x1, .f32⟩
  | 37 => ⟨S50000x100, .f32⟩
  | 38 => ⟨S50000x100, .f32⟩
  | 39 => ⟨S_, .f32⟩
  | 40 => ⟨S50000x1, .f32⟩
  | 41 => ⟨S50000x1, .f32⟩
  | 42 => ⟨S50000x1, .f32⟩
  | 43 => ⟨S50000x100, .f32⟩
  | 44 => ⟨S50000x100, .f32⟩
  | 45 => ⟨S1x100, .f32⟩
  | 46 => ⟨S50000x100, .f32⟩
  | 47 => ⟨S50000x100, .f32⟩
  | 48 => ⟨S1x100, .f32⟩
  | 49 => ⟨S50000x100, .f32⟩
  | 50 => ⟨S50000x100, .f32⟩
  | 51 => ⟨S50000x128, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S800000x1, .f32⟩
  | 62 => ⟨S800000x128, .f32⟩
  | 63 => ⟨S800000x128, .f32⟩
  | 64 => ⟨S_, .f32⟩
  | 65 => ⟨S50000x128, .f32⟩
  | 66 => ⟨S800000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S_, .f32⟩
  | 75 => ⟨S50000, .f32⟩
  | 76 => ⟨S50000x1, .f32⟩
  | 77 => ⟨S_, .f32⟩
  | 78 => ⟨S50000x1, .f32⟩
  | 79 => ⟨S50000x1, .f32⟩
  | 80 => ⟨S50000x128, .f32⟩
  | 81 => ⟨S50000x128, .f32⟩
  | 82 => ⟨S50000x128, .f32⟩
  | 83 => ⟨S_, .f32⟩
  | 84 => ⟨S50000, .f32⟩
  | 85 => ⟨S50000x1, .f32⟩
  | 86 => ⟨S_, .f32⟩
  | 87 => ⟨S50000x1, .f32⟩
  | 88 => ⟨S50000x1, .f32⟩
  | 89 => ⟨S50000x128, .f32⟩
  | 90 => ⟨S50000x128, .f32⟩
  | 91 => ⟨S_, .f32⟩
  | 92 => ⟨S50000x1, .f32⟩
  | 93 => ⟨S50000x1, .f32⟩
  | 94 => ⟨S50000x1, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S50000x128, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .f32⟩
  | 113 => ⟨S800000x1, .f32⟩
  | 114 => ⟨S800000x128, .f32⟩
  | 115 => ⟨S800000x128, .f32⟩
  | 116 => ⟨S_, .f32⟩
  | 117 => ⟨S50000x128, .f32⟩
  | 118 => ⟨S800000x1, .i32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S_, .f32⟩
  | 127 => ⟨S50000, .f32⟩
  | _ => ⟨S50000x100, .f32⟩

abbrev hbmTy0_1 (i : Nat) : BufTy := match i % 128 with
  | 0 => ⟨S50000x1, .f32⟩
  | 1 => ⟨S_, .f32⟩
  | 2 => ⟨S50000x1, .f32⟩
  | 3 => ⟨S50000x1, .f32⟩
  | 4 => ⟨S50000x128, .f32⟩
  | 5 => ⟨S50000x128, .f32⟩
  | 6 => ⟨S50000x128, .f32⟩
  | 7 => ⟨S_, .f32⟩
  | 8 => ⟨S50000, .f32⟩
  | 9 => ⟨S50000x1, .f32⟩
  | 10 => ⟨S_, .f32⟩
  | 11 => ⟨S50000x1, .f32⟩
  | 12 => ⟨S50000x1, .f32⟩
  | 13 => ⟨S50000x128, .f32⟩
  | 14 => ⟨S50000x128, .f32⟩
  | 15 => ⟨S_, .f32⟩
  | 16 => ⟨S50000x1, .f32⟩
  | 17 => ⟨S50000x1, .f32⟩
  | 18 => ⟨S50000x1, .f32⟩
  | 19 => ⟨S50000x128, .f32⟩
  | 20 => ⟨S50000x128, .f32⟩
  | 21 => ⟨S1x128, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S50000x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S800000x1, .f32⟩
  | 38 => ⟨S800000x128, .f32⟩
  | 39 => ⟨S800000x128, .f32⟩
  | 40 => ⟨S_, .f32⟩
  | 41 => ⟨S50000x128, .f32⟩
  | 42 => ⟨S800000x1, .i32⟩
  | 43 => ⟨S50000x128, .f32⟩
  | 44 => ⟨S1x128, .f32⟩
  | 45 => ⟨S50000x128, .f32⟩
  | 46 => ⟨S50000x128, .f32⟩
  | 47 => ⟨S_, .f32⟩
  | 48 => ⟨S50000x128, .f32⟩
  | 49 => ⟨S50000x128, .f32⟩
  | 50 => ⟨S_, .f32⟩
  | 51 => ⟨S512x128, .f32⟩
  | 52 => ⟨S50000x1, .i32⟩
  | 53 => ⟨S512x128, .f32⟩
  | 54 => ⟨S_, .f32⟩
  | 55 => ⟨S50000x1, .f32⟩
  | 56 => ⟨S_, .f32⟩
  | 57 => ⟨S512x1, .f32⟩
  | 58 => ⟨S50000x1, .i32⟩
  | 59 => ⟨S512x1, .f32⟩
  | 60 => ⟨S_, .f32⟩
  | 61 => ⟨S512x1, .f32⟩
  | 62 => ⟨S512x1, .f32⟩
  | 63 => ⟨S512x128, .f32⟩
  | 64 => ⟨S512x128, .f32⟩
  | 65 => ⟨S512x2, .f32⟩
  | 66 => ⟨S1x2, .f32⟩
  | 67 => ⟨S512x2, .f32⟩
  | 68 => ⟨S512x2, .f32⟩
  | _ => ⟨S50000x100, .f32⟩

abbrev hbmTy (i : Nat) : BufTy := match i / 128 with
  | 0 => hbmTy0_0 i
  | 1 => hbmTy0_1 i
  | _ => ⟨S50000x100, .f32⟩

abbrev bufTy : (tb : Table) → Fin (tcTables nBuf tb) → BufTy
  | .hbm, ⟨i, _⟩ => hbmTy i
  | _, _ => ⟨S50000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c : Ref sig .tc := ⟨.hbm, 52, rfl⟩
abbrev main_v29 : Ref sig .tc := ⟨.hbm, 53, rfl⟩
abbrev main_v30 : Ref sig .tc := ⟨.hbm, 54, rfl⟩
abbrev main_c_4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_call0_cst : Ref sig .tc := ⟨.hbm, 71, rfl⟩
abbrev main_call0_v0 : Ref sig .tc := ⟨.hbm, 72, rfl⟩
abbrev main_v45 : Ref sig .tc := ⟨.hbm, 73, rfl⟩
abbrev main_cst_6 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_10 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_11 : Ref sig .tc := ⟨.hbm, 104, rfl⟩
abbrev main_v71 : Ref sig .tc := ⟨.hbm, 105, rfl⟩
abbrev main_v72 : Ref sig .tc := ⟨.hbm, 106, rfl⟩
abbrev main_c_12 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_13 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_call1_cst : Ref sig .tc := ⟨.hbm, 123, rfl⟩
abbrev main_call1_v0 : Ref sig .tc := ⟨.hbm, 124, rfl⟩
abbrev main_v87 : Ref sig .tc := ⟨.hbm, 125, rfl⟩
abbrev main_cst_14 : Ref sig .tc := ⟨.hbm, 126, rfl⟩
abbrev main_v88 : Ref sig .tc := ⟨.hbm, 127, rfl⟩
abbrev main_v89 : Ref sig .tc := ⟨.hbm, 128, rfl⟩
abbrev main_cst_15 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_16 : Ref sig .tc := ⟨.hbm, 135, rfl⟩
abbrev main_v95 : Ref sig .tc := ⟨.hbm, 136, rfl⟩
abbrev main_v96 : Ref sig .tc := ⟨.hbm, 137, rfl⟩
abbrev main_cst_17 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_18 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_c_19 : Ref sig .tc := ⟨.hbm, 156, rfl⟩
abbrev main_v113 : Ref sig .tc := ⟨.hbm, 157, rfl⟩
abbrev main_v114 : Ref sig .tc := ⟨.hbm, 158, rfl⟩
abbrev main_c_20 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_21 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_call2_cst : Ref sig .tc := ⟨.hbm, 175, rfl⟩
abbrev main_call2_v0 : Ref sig .tc := ⟨.hbm, 176, rfl⟩
abbrev main_v129 : Ref sig .tc := ⟨.hbm, 177, rfl⟩
abbrev main_cst_22 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_cst_23 : Ref sig .tc := ⟨.hbm, 182, rfl⟩
abbrev main_v133 : Ref sig .tc := ⟨.hbm, 183, rfl⟩
abbrev main_cst_24 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_cst_25 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S50000x100_S50000_d1 : S50000x100.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x100_0_1 : S50000x1.BroadcastsInDim S50000x100 (![0, 1] : Fin 2 → Fin S50000x100.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  bcast_S50000x1_S50000x128_0_1 : S50000x1.BroadcastsInDim S50000x128 (![0, 1] : Fin 2 → Fin S50000x128.rank)
  bcast_S_S512x128 : S_.BroadcastsInDim S512x128 (![] : Fin 0 → Fin S512x128.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  dot_S50000x100_S100x128_S50000x128_1_0_0_1_n_n_wf : DotDims.WF S50000x100 S100x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  scatter_S512x1_S50000x1_S50000x1_1_0_0_1_wf : ScatterDims.WF S512x1 S50000x1 S50000x1 [1] [0] [0] 1
  dot_S512x128_S128x2_S512x2_1_0_0_1_n_n_wf : DotDims.WF S512x128 S128x2 S512x2 [1] [0] [0] [1] [] []

variable [Facts₀]

def dot_S50000x100_S100x128_S50000x128_1_0_0_1_n_n : DotDims S50000x100 S100x128 S50000x128 where
  lhsContracting := [1]
  rhsContracting := [0]
  lhsNonContracting := [0]
  rhsNonContracting := [1]
  lhsBatch := []
  rhsBatch := []
  wf := dot_S50000x100_S100x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.KernelRun.lean ====
/-
  The idealized kernel's run with every buffer named.

  The program is three regions among stretches of host operations. Its run is the run of that list of segments;
  at the end every buffer that outlives a region holds what the fold of the segments leaves in it: a host stretch
  applies its operations to the buffers it finds, a region leaves its arrays at what its write-backs produce and
  every other buffer untouched. So every weakly fair execution terminates, nothing faulting, in a memory that
  agrees with that fold on every such buffer — in particular on the result and on the arguments.
-/
import proofs.«146366_j65000035058580_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every buffer that outlives a region at the
    fold of the segments from the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- A buffer that outlives the regions, read at the end of the run. -/
theorem mem_uc (b : Ref sig .tc) (h : ¬ (Proc.devRef .tc b : DevRef τ sig).isScoped) :
    Proc.devRef .tc b ∈ Pipeline.ucRefs τ sig := Gen.mem_uc b h

end Cert.KernelIdeal.Run

end
-- ==== Proof.HostStages.lean ====
/-
  The host stages the two programs share.

  Around its three dense stages the network does, in both programs, the same operations on whole arrays:
  * the edge list's two rows are cut out and flattened: the source node and the destination node of every edge;
  * one aggregation: a source index below zero is wrapped by the number of nodes, the projected features'
    rows are gathered at the source indices, every gathered row is scaled by its edge's weight, the scaled rows
    are summed into their destination rows starting from zero, the bias row is added to every row and the
    result is clamped below at zero;
  * the read-out: the node features are summed per graph, the nodes of every graph are counted by summing ones
    the same way, every graph's sum is divided by its count (at least one), multiplied by the classifier matrix
    and shifted by the classifier bias.
  Each is ONE function of its operands here; nothing below ever looks inside one.
-/
import proofs.«146366_j65000035058580_1_alg».proof.KernelIdeal
import proofs.«146366_j65000035058580_1_alg».proof.Proof.Gen.KernelIdeal
import Idealize.ShloMosaic.PureOps.Ideal

noncomputable section

namespace Cert.KernelIdeal.HostStages

open Cert.KernelIdeal Cert.KernelIdeal.Facts₀ Cert.KernelIdeal.Facts Idealize.ShloMosaic

/-- Row `0` of the edge list, flattened: every edge's source node. -/
def srcRow (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000

/-- Row `1` of the edge list, flattened: every edge's destination node. -/
def dstRow (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- The sum over the edges: gather at the wrapped source index, scale by the edge weight, sum into the destination
    rows from zero, add the bias row. -/
def edgeSum (hw : (⟨S50000x128, .f32⟩ : BufTy).Contents (Elt Ideal))
    (src dst : (⟨S800000, .i32⟩ : BufTy).Contents (Elt Ideal))
    (ew : (⟨S800000, .f32⟩ : BufTy).Contents (Elt Ideal))
    (bias : (⟨S128, .f32⟩ : BufTy).Contents (Elt Ideal)) : (⟨S50000x128, .f32⟩ : BufTy).Contents (Elt Ideal) :=
  addf
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (mulf
        (Host.gather gather_S50000x128_S800000x1_S800000x128_1_0_n_n_0_1_1128 hw
          (broadcastInDim S800000x1 ![0] bcast_S800000_S800000x1_0
            (select (cmpi .slt src (broadcastInDim S800000 ![] bcast_S_S800000 (constantI S_ 32 0#32)))
              (addi src (broadcastInDim S800000 ![] bcast_S_S800000 (constantI S_ 32 50000#32))) src)))
        (broadcastInDim S800000x128 ![0, 1] bcast_S800000x1_S800000x128_0_1
          (broadcastInDim S800000x1 ![0] bcast_S800000_S800000x1_0 ew))))
    (broadcastInDim S50000x128 ![0, 1] bcast_S1x128_S50000x128_0_1 (broadcastInDim S1x128 ![1] bcast_S128_S1x128_1 bias))

/-- One aggregation over the edges: the sum over the edges, clamped below at zero. -/
def aggregate (hw : (⟨S50000x128, .f32⟩ : BufTy).Contents (Elt Ideal))
    (src dst : (⟨S800000, .i32⟩ : BufTy).Contents (Elt Ideal))
    (ew : (⟨S800000, .f32⟩ : BufTy).Contents (Elt Ideal))
    (bias : (⟨S128, .f32⟩ : BufTy).Contents (Elt Ideal)) : (⟨S50000x128, .f32⟩ : BufTy).Contents (Elt Ideal) :=
  maximumf (edgeSum hw src dst ew bias)
    (broadcastInDim S50000x128 ![] bcast_S_S50000x128 (constant (F := Ideal) S_ .f32 0x00000000#32))

/-- The read-out: per-graph sums divided by per-graph counts (at least one), times the classifier, plus its bias. -/
def readout (h : (⟨S50000x128, .f32⟩ : BufTy).Contents (Elt Ideal))
    (batch : (⟨S50000, .i32⟩ : BufTy).Contents (Elt Ideal))
    (wlin : (⟨S128x2, .f32⟩ : BufTy).Contents (Elt Ideal))
    (blin : (⟨S2, .f32⟩ : BufTy).Contents (Elt Ideal)) : (⟨S512x2, .f32⟩ : BufTy).Contents (Elt Ideal) :=
  addf
    (Host.dotGeneral (φ₁ := .f32) (φ₂ := .f32) dot_S512x128_S128x2_S512x2_1_0_0_1_n_n none
      (Host.divf
        (Host.scatterAdd scatter_S512x128_S50000x1_S50000x128_1_0_0_1
          (broadcastInDim S512x128 ![] bcast_S_S512x128 (constant (F := Ideal) S_ .f32 0x00000000#32))
          (broadcastInDim S50000x1 ![0] bcast_S50000_S50000x1_0 batch) h)
        (broadcastInDim S512x128 ![0, 1] bcast_S512x1_S512x128_0_1
          (maximumf
            (Host.scatterAdd scatter_S512x1_S50000x1_S50000x1_1_0_0_1
              (broadcastInDim S512x1 ![] bcast_S_S512x1 (constant (F := Ideal) S_ .f32 0x00000000#32))
              (broadcastInDim S50000x1 ![0] bcast_S50000_S50000x1_0 batch)
              (broadcastInDim S50000x1 ![] bcast_S_S50000x1 (constant (F := Ideal) S_ .f32 0x3F800000#32)))
            (broadcastInDim S512x1 ![] bcast_S_S512x1 (constant (F := Ideal) S_ .f32 0x3F800000#32)))))
      wlin)
    (broadcastInDim S512x2 ![0, 1] bcast_S1x2_S512x2_0_1 (broadcastInDim S1x2 ![1] bcast_S2_S1x2_1 blin))

end Cert.KernelIdeal.HostStages

end
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«146366_j65000035058580_1_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibLayerNorm.lean ====
/-
  Layer normalisation of a row on the extended reals, and a kernel tile's layer normalisation read at an entry
  (every extent generic).

  `rowMean cnt a` is the row's sum divided by `cnt`; `lnorm cnt eps a g b c` is
  (a c − mean a) · rsqrt (mean ((a − mean a)²) + eps) · g c + b c, every operation the exact one.
  A kernel body that layer-normalises an [a, b] tile `v` forms the column of row means — the lane sum of each row,
  recast to [a, 1] and divided by the count —, subtracts it broadcast over the tile, forms the column of means of
  the squared centred tile in the same way, adds ε, takes the reciprocal square root, broadcasts that column, and
  multiplies the centred tile by it, by a [1, b] scale row and adds a [1, b] shift row, both broadcast down the rows
  (`meanCol`, `centred`, `normed`: mean, centring, second moment, reciprocal square root, scale, shift, in that order).
  Entry (p, c) of the result is `lnorm` of row `p` at column `c`: each column-valued step reads row `p`, each
  row-valued step reads column `c`.
  Also: a unit-stride slice of columns `o .. o + n` of an [a, N] tile reads column `o + c`; a vector recast to a
  one-row matrix reads the vector; `rsqrt`, `logistic`, `tanh` of a vector at an index.
-/
import proofs.«146366_j65000035058580_1_alg».proof.Proof.LibRowOps
import proofs.«146366_j65000035058580_1_alg».proof.Proof.LibDotRecord

noncomputable section

namespace LayerNorm

open Idealize.ShloMosaic Idealize.ShloMosaic.ValueIdx

variable {a b : ℕ}

/-- The mean of a row: its sum divided by the count. -/
def rowMean {n : ℕ} (cnt : EReal) (a : Fin n → EReal) : EReal := Ideal.div (∑ k, a k) cnt

/-- Layer normalisation of a row with scale `g` and shift `b`, at entry `c`. -/
def lnorm {n : ℕ} (cnt eps : EReal) (a g b : Fin n → EReal) (c : Fin n) : EReal :=
  (a c - rowMean cnt a) * Ideal.rsqrt (rowMean cnt (fun k => (a k - rowMean cnt a) * (a k - rowMean cnt a)) + eps) * g c + b c

/-- A vector's reciprocal square root, at an index. -/
theorem rsqrt_apply {s : Shape} (v : FVec Ideal s .f32) (i : s.Idx) : rsqrt v i = Ideal.rsqrt (v i) := rfl
/-- A vector's logistic, at an index. -/
theorem logistic_apply {s : Shape} (v : FVec Ideal s .f32) (i : s.Idx) : logistic v i = Ideal.logistic (v i) := rfl
/-- A vector's hyperbolic tangent, at an index. -/
theorem tanh_apply {s : Shape} (v : FVec Ideal s .f32) (i : s.Idx) : tanh v i = Ideal.tanh (v i) := rfl

/-- A vector recast to a one-row matrix reads, at (0, j), the vector at j. -/
theorem rowOf_apply {α : Type} {n : ℕ} (v : (⟨1, ![n]⟩ : Shape).Idx → α) (h : (⟨1, ![n]⟩ : Shape).ShapeCasts ⟨2, ![1, n]⟩)
    (u : Fin 1) (j : Fin n) : shapeCast ⟨2, ![1, n]⟩ v h (ix2 u j) = v (ix1 j) :=
  shapeCast_apply v h _ _ (by
    have hu : u.val = 0 := by omega
    rw [Shape.rowMajor_val_two, Shape.rowMajor_val_one]
    show j.val = u.val * n + j.val
    rw [hu, Nat.zero_mul, Nat.zero_add])

/-- Columns `o .. o + n` of an [a, N] tile, at (p, c): the tile at (p, o + c). -/
theorem sliceCols_apply {α : Type} {N n : ℕ} (o : ℕ) (v : (⟨2, ![a, N]⟩ : Shape).Idx → α)
    (h : (⟨2, ![a, N]⟩ : Shape).Slices ![0, o] ⟨2, ![a, n]⟩) (p : Fin a) (c : Fin n) (c' : Fin N) (hc : c'.val = o + c.val) :
    extractStridedSlice ⟨2, ![a, n]⟩ ![0, o] v h (ix2 p c) = v (ix2 p c') :=
  extractStridedSlice_apply ![0, o] v h (ix2 p c) (ix2 p c') fun ax => by
    match ax with
    | ⟨0, _⟩ => show p.val = 0 + p.val; omega
    | ⟨1, _⟩ => exact hc

/-- The column of row means of a tile: lane sums, recast to a column, divided by the count word. -/
def meanCol (v : FVec Ideal ⟨2, ![a, b]⟩ .f32) (wc : BitVec 32) (hR : Shape.Reduces ⟨2, ![a, b]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) : FVec Ideal ⟨2, ![a, 1]⟩ .f32 :=
  divf (shapeCast ⟨2, ![a, 1]⟩ (multiReduction .add [1] ⟨1, ![a]⟩ v 0x00000000#32 hR hφ hacc) hC)
    (broadcast ⟨2, ![a, 1]⟩ (Scalar.ofBits .f32 wc : Ideal .f32))

/-- Row `p` of the mean column is the mean of row `p`. -/
theorem meanCol_apply (v : FVec Ideal ⟨2, ![a, b]⟩ .f32) (wc : BitVec 32) (hR : Shape.Reduces ⟨2, ![a, b]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (p : Fin a) :
    meanCol v wc hR hφ hacc hC (ix2 p (0 : Fin 1)) = rowMean (Ideal.ofBits .f32 wc) (fun k => v (ix2 p k)) := by
  unfold meanCol rowMean
  rw [divf_apply, Gcn.Lib.shapeCast_a_a1_apply, Gcn.Lib.rowSum_apply]
  rfl

/-- The tile minus its row means. -/
def centred (v : FVec Ideal ⟨2, ![a, b]⟩ .f32) (wc : BitVec 32) (hR : Shape.Reduces ⟨2, ![a, b]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, b]⟩) :
    FVec Ideal ⟨2, ![a, b]⟩ .f32 :=
  subf v (broadcastTo ⟨2, ![a, b]⟩ (meanCol v wc hR hφ hacc hC) hB)

/-- Entry (p, c) of the centred tile: the entry minus the mean of row `p`. -/
theorem centred_apply (v : FVec Ideal ⟨2, ![a, b]⟩ .f32) (wc : BitVec 32) (hR : Shape.Reduces ⟨2, ![a, b]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, b]⟩)
    (p : Fin a) (c : Fin b) :
    centred v wc hR hφ hacc hC hB (ix2 p c) = v (ix2 p c) - rowMean (Ideal.ofBits .f32 wc) (fun k => v (ix2 p k)) := by
  unfold centred
  rw [subf_apply, Gcn.Lib.broadcastTo_a1_ab_apply, meanCol_apply]

/-- The layer-normalised tile with scale row `g` and shift row `bb`. -/
def normed (v : FVec Ideal ⟨2, ![a, b]⟩ .f32) (g bb : FVec Ideal ⟨2, ![1, b]⟩ .f32) (wc we : BitVec 32)
    (hR : Shape.Reduces ⟨2, ![a, b]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, b]⟩)
    (hG : (⟨2, ![1, b]⟩ : Shape).Broadcasts ⟨2, ![a, b]⟩) : FVec Ideal ⟨2, ![a, b]⟩ .f32 :=
  addf (mulf (mulf (centred v wc hR hφ hacc hC hB)
      (broadcastTo ⟨2, ![a, b]⟩ (rsqrt (addf
        (meanCol (mulf (centred v wc hR hφ hacc hC hB) (centred v wc hR hφ hacc hC hB)) wc hR hφ hacc hC)
        (broadcast ⟨2, ![a, 1]⟩ (Scalar.ofBits .f32 we : Ideal .f32)))) hB))
      (broadcastTo ⟨2, ![a, b]⟩ g hG))
    (broadcastTo ⟨2, ![a, b]⟩ bb hG)

/-- Entry (p, c) of the normalised tile is the layer norm of row `p` at column `c`. -/
theorem normed_apply (v : FVec Ideal ⟨2, ![a, b]⟩ .f32) (g bb : FVec Ideal ⟨2, ![1, b]⟩ .f32) (wc we : BitVec 32)
    (hR : Shape.Reduces ⟨2, ![a, b]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, b]⟩)
    (hG : (⟨2, ![1, b]⟩ : Shape).Broadcasts ⟨2, ![a, b]⟩) (p : Fin a) (c : Fin b) :
    normed v g bb wc we hR hφ hacc hC hB hG (ix2 p c)
      = lnorm (Ideal.ofBits .f32 wc) (Ideal.ofBits .f32 we) (fun k => v (ix2 p k))
          (fun k => g (ix2 (0 : Fin 1) k)) (fun k => bb (ix2 (0 : Fin 1) k)) c := by
  unfold normed lnorm
  rw [addf_apply, mulf_apply, mulf_apply, Gcn.Lib.broadcastTo_a1_ab_apply, DotRecord.broadcastTo_1b_ab_apply,
    DotRecord.broadcastTo_1b_ab_apply, rsqrt_apply, addf_apply, broadcast_apply, centred_apply, meanCol_apply]
  simp only [mulf_apply, centred_apply]
  rfl

end LayerNorm

end
-- ==== Proof.NormProject.lean ====
/-
  Normalise every row, then project.

  One dense stage of the network, as a function of whole arrays on the extended reals: every row of an [a, d]
  array is layer-normalised over its d entries (mean and second central moment as sums divided by the count
  `cnt`, the constant `eps` added under the reciprocal square root, then the scale row `g` and the shift row `b`),
  and the normalised row is multiplied by a [d, n] matrix. Entry (p, q) of the result is
  the sum over k of lnorm(row p)(k) · w(k, q). Every extent is generic; the count and the epsilon are parameters.
-/
import proofs.«146366_j65000035058580_1_alg».proof.Proof.LibLayerNorm

noncomputable section

namespace NormProject

open Idealize.ShloMosaic Idealize.ShloMosaic.ValueIdx

/-- The rows of `x` layer-normalised (count `cnt`, epsilon `eps`, scale `g`, shift `b`) and multiplied by `w`. -/
def normProject {a d n : ℕ} (cnt eps : EReal) (x : (⟨2, ![a, d]⟩ : Shape).Idx → EReal)
    (g b : (⟨1, ![d]⟩ : Shape).Idx → EReal) (w : (⟨2, ![d, n]⟩ : Shape).Idx → EReal) :
    (⟨2, ![a, n]⟩ : Shape).Idx → EReal :=
  fun i => ∑ k : Fin d, LayerNorm.lnorm cnt eps (fun j => x (ix2 (i 0) j)) (fun j => g (ix1 j)) (fun j => b (ix1 j)) k
    * w (ix2 k (i 1))

/-- Entry (p, q): the sum over k of the normalised row p at k times w (k, q). -/
theorem normProject_apply {a d n : ℕ} (cnt eps : EReal) (x : (⟨2, ![a, d]⟩ : Shape).Idx → EReal)
    (g b : (⟨1, ![d]⟩ : Shape).Idx → EReal) (w : (⟨2, ![d, n]⟩ : Shape).Idx → EReal) (p : Fin a) (q : Fin n) :
    normProject cnt eps x g b w (ix2 p q)
      = ∑ k : Fin d, LayerNorm.lnorm cnt eps (fun j => x (ix2 p j)) (fun j => g (ix1 j)) (fun j => b (ix1 j)) k
          * w (ix2 k q) := rfl

/-- The count of the first stage's rows, 100, and of the later stages', 128, and the epsilon, as the words the
    programs print. -/
abbrev cnt100 : EReal := Ideal.ofBits .f32 0x42C80000#32
abbrev cnt128 : EReal := Ideal.ofBits .f32 0x43000000#32
abbrev epsLN : EReal := Ideal.ofBits .f32 0x3727C5AC#32

end NormProject

end
-- ==== Proof.Network.lean ====
/-
  The whole network as one function of its arguments.

  Three times: normalise every row of the current features and project them (the dense stage), then aggregate
  over the edges (the shared host stage). Then read out. The first dense stage has rows of 100 entries, the later
  ones of 128; the epsilon is the same word in all three.
-/
import proofs.«146366_j65000035058580_1_alg».proof.Proof.HostStages
import proofs.«146366_j65000035058580_1_alg».proof.Proof.NormProject

noncomputable section

namespace Cert.KernelIdeal.Network

open Cert.KernelIdeal Cert.KernelIdeal.HostStages NormProject Idealize.ShloMosaic

/-- The first layer's features: dense stage of the input, aggregated. -/
def layer1 (x : (⟨S50000x100, .f32⟩ : BufTy).Contents (Elt Ideal)) (ei : (⟨S2x800000, .i32⟩ : BufTy).Contents (Elt Ideal)) (ew : (⟨S800000, .f32⟩ : BufTy).Contents (Elt Ideal))
    (g0 b0 : (⟨S100, .f32⟩ : BufTy).Contents (Elt Ideal)) (w0 : (⟨S100x128, .f32⟩ : BufTy).Contents (Elt Ideal)) (c0 : (⟨S128, .f32⟩ : BufTy).Contents (Elt Ideal)) : (⟨S50000x128, .f32⟩ : BufTy).Contents (Elt Ideal) :=
  aggregate (normProject (a := 50000) (d := 100) (n := 128) cnt100 epsLN x g0 b0 w0) (srcRow ei) (dstRow ei) ew c0

/-- A later layer's features: dense stage of the previous features, aggregated. -/
def layerNext (h : (⟨S50000x128, .f32⟩ : BufTy).Contents (Elt Ideal)) (ei : (⟨S2x800000, .i32⟩ : BufTy).Contents (Elt Ideal)) (ew : (⟨S800000, .f32⟩ : BufTy).Contents (Elt Ideal))
    (g b : (⟨S128, .f32⟩ : BufTy).Contents (Elt Ideal)) (w : (⟨S128x128, .f32⟩ : BufTy).Contents (Elt Ideal)) (cb : (⟨S128, .f32⟩ : BufTy).Contents (Elt Ideal)) : (⟨S50000x128, .f32⟩ : BufTy).Contents (Elt Ideal) :=
  aggregate (normProject (a := 50000) (d := 128) (n := 128) cnt128 epsLN h g b w) (srcRow ei) (dstRow ei) ew cb

/-- The network: three layers and the read-out. -/
def net (x : (⟨S50000x100, .f32⟩ : BufTy).Contents (Elt Ideal)) (ei : (⟨S2x800000, .i32⟩ : BufTy).Contents (Elt Ideal)) (ew : (⟨S800000, .f32⟩ : BufTy).Contents (Elt Ideal))
    (batch : (⟨S50000, .i32⟩ : BufTy).Contents (Elt Ideal)) (g0 b0 : (⟨S100, .f32⟩ : BufTy).Contents (Elt Ideal)) (g1 b1 g2 b2 : (⟨S128, .f32⟩ : BufTy).Contents (Elt Ideal))
    (w0 : (⟨S100x128, .f32⟩ : BufTy).Contents (Elt Ideal)) (c0 : (⟨S128, .f32⟩ : BufTy).Contents (Elt Ideal)) (w1 : (⟨S128x128, .f32⟩ : BufTy).Contents (Elt Ideal)) (c1 : (⟨S128, .f32⟩ : BufTy).Contents (Elt Ideal))
    (w2 : (⟨S128x128, .f32⟩ : BufTy).Contents (Elt Ideal)) (c2 : (⟨S128, .f32⟩ : BufTy).Contents (Elt Ideal)) (wlin : (⟨S128x2, .f32⟩ : BufTy).Contents (Elt Ideal)) (blin : (⟨S2, .f32⟩ : BufTy).Contents (Elt Ideal)) :
    (⟨S512x2, .f32⟩ : BufTy).Contents (Elt Ideal) :=
  readout (layerNext (layerNext (layer1 x ei ew g0 b0 w0 c0) ei ew g1 b1 w1 c1) ei ew g2 b2 w2 c2) batch wlin blin

end Cert.KernelIdeal.Network

end
-- ==== Proof.KernelFold.lean ====
/-
  The idealized kernel's result as a function of its arguments.

  The fold of the program's segments is read buffer by buffer. The first host stretch cuts the two rows out of the
  edge list; no later operation and no region writes them, nor any argument. Each region leaves its output array
  at the dense stage of its input arrays (hypotheses here: they are proved region by region elsewhere). Each later
  stretch is one aggregation of the region's output, and the last one also the read-out. Composed, the result
  buffer holds the network of the arguments.
-/
import proofs.«146366_j65000035058580_1_alg».proof.Proof.Gen.KernelIdeal.Frame
import proofs.«146366_j65000035058580_1_alg».proof.Proof.Network

set_option maxRecDepth 16384

noncomputable section

namespace Cert.KernelIdeal.Fold

open Cert.KernelIdeal Cert.KernelIdeal.Gen Cert.KernelIdeal.HostStages Cert.KernelIdeal.Network NormProject
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A stretch of host operations leaves a buffer none of them writes as it found it. -/
local macro "past_stretch" : tactic => `(tactic|
  exact StableHlo.after_of_forall_not_mem _ _ (List.forall_iff_forall_mem.mp (by
    simp only [hostOps0, hostOps1, hostOps1_1, hostOps2, hostOps2_1, hostOps3, hostOps3_1, hostOps3_2,
      List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## The two rows of the edge list, cut out by the first stretch -/

theorem src1 : W1 m ρ c (Proc.devRef .tc main_v1) = srcRow (m ((c : Thread nD τ).loc main_arg1)) := by
  show StableHlo.after hostOps0 (W0 m ρ c) (Proc.devRef .tc main_v1) = _
  after_results; rfl

theorem dst1 : W1 m ρ c (Proc.devRef .tc main_v3) = dstRow (m ((c : Thread nD τ).loc main_arg1)) := by
  show StableHlo.after hostOps0 (W0 m ρ c) (Proc.devRef .tc main_v3) = _
  after_results; rfl

/-! ## Arguments and the two rows at every later boundary: nothing writes them -/

theorem W1_main_arg0 : W1 m ρ c (Proc.devRef .tc main_arg0) = m ((c : Thread nD τ).loc main_arg0) := by past_stretch
theorem W1_main_arg4 : W1 m ρ c (Proc.devRef .tc main_arg4) = m ((c : Thread nD τ).loc main_arg4) := by past_stretch
theorem W1_main_arg5 : W1 m ρ c (Proc.devRef .tc main_arg5) = m ((c : Thread nD τ).loc main_arg5) := by past_stretch
theorem W1_main_arg10 : W1 m ρ c (Proc.devRef .tc main_arg10) = m ((c : Thread nD τ).loc main_arg10) := by past_stretch
theorem W2_main_arg2 : W2 m ρ c (Proc.devRef .tc main_arg2) = m ((c : Thread nD τ).loc main_arg2) :=
  (W2_of_ne m ρ c main_arg2 (by decide)).trans (by past_stretch)
theorem W2_main_arg3 : W2 m ρ c (Proc.devRef .tc main_arg3) = m ((c : Thread nD τ).loc main_arg3) :=
  (W2_of_ne m ρ c main_arg3 (by decide)).trans (by past_stretch)
theorem W2_main_arg6 : W2 m ρ c (Proc.devRef .tc main_arg6) = m ((c : Thread nD τ).loc main_arg6) :=
  (W2_of_ne m ρ c main_arg6 (by decide)).trans (by past_stretch)
theorem W2_main_arg7 : W2 m ρ c (Proc.devRef .tc main_arg7) = m ((c : Thread nD τ).loc main_arg7) :=
  (W2_of_ne m ρ c main_arg7 (by decide)).trans (by past_stretch)
theorem W2_main_arg8 : W2 m ρ c (Proc.devRef .tc main_arg8) = m ((c : Thread nD τ).loc main_arg8) :=
  (W2_of_ne m ρ c main_arg8 (by decide)).trans (by past_stretch)
theorem W2_main_arg9 : W2 m ρ c (Proc.devRef .tc main_arg9) = m ((c : Thread nD τ).loc main_arg9) :=
  (W2_of_ne m ρ c main_arg9 (by decide)).trans (by past_stretch)
theorem W2_main_arg11 : W2 m ρ c (Proc.devRef .tc main_arg11) = m ((c : Thread nD τ).loc main_arg11) :=
  (W2_of_ne m ρ c main_arg11 (by decide)).trans (by past_stretch)
theorem W2_main_arg12 : W2 m ρ c (Proc.devRef .tc main_arg12) = m ((c : Thread nD τ).loc main_arg12) :=
  (W2_of_ne m ρ c main_arg12 (by decide)).trans (by past_stretch)
theorem W2_main_arg13 : W2 m ρ c (Proc.devRef .tc main_arg13) = m ((c : Thread nD τ).loc main_arg13) :=
  (W2_of_ne m ρ c main_arg13 (by decide)).trans (by past_stretch)
theorem W2_main_arg14 : W2 m ρ c (Proc.devRef .tc main_arg14) = m ((c : Thread nD τ).loc main_arg14) :=
  (W2_of_ne m ρ c main_arg14 (by decide)).trans (by past_stretch)
theorem W2_main_arg15 : W2 m ρ c (Proc.devRef .tc main_arg15) = m ((c : Thread nD τ).loc main_arg15) :=
  (W2_of_ne m ρ c main_arg15 (by decide)).trans (by past_stretch)
theorem W2_main_arg16 : W2 m ρ c (Proc.devRef .tc main_arg16) = m ((c : Thread nD τ).loc main_arg16) :=
  (W2_of_ne m ρ c main_arg16 (by decide)).trans (by past_stretch)
theorem W2_main_arg17 : W2 m ρ c (Proc.devRef .tc main_arg17) = m ((c : Thread nD τ).loc main_arg17) :=
  (W2_of_ne m ρ c main_arg17 (by decide)).trans (by past_stretch)
theorem W2_src : W2 m ρ c (Proc.devRef .tc main_v1) = srcRow (m ((c : Thread nD τ).loc main_arg1)) :=
  (W2_of_ne m ρ c main_v1 (by decide)).trans (src1 m ρ c)
theorem W2_dst : W2 m ρ c (Proc.devRef .tc main_v3) = dstRow (m ((c : Thread nD τ).loc main_arg1)) :=
  (W2_of_ne m ρ c main_v3 (by decide)).trans (dst1 m ρ c)
theorem W4_main_arg6 : W4 m ρ c (Proc.devRef .tc main_arg6) = m ((c : Thread nD τ).loc main_arg6) :=
  (by past_stretch : W4 m ρ c (Proc.devRef .tc main_arg6) = W3 m ρ c (Proc.devRef .tc main_arg6)).trans ((by past_stretch : W3 m ρ c (Proc.devRef .tc main_arg6) = W2 m ρ c (Proc.devRef .tc main_arg6)).trans (W2_main_arg6 m ρ c))
theorem W4_main_arg7 : W4 m ρ c (Proc.devRef .tc main_arg7) = m ((c : Thread nD τ).loc main_arg7) :=
  (by past_stretch : W4 m ρ c (Proc.devRef .tc main_arg7) = W3 m ρ c (Proc.devRef .tc main_arg7)).trans ((by past_stretch : W3 m ρ c (Proc.devRef .tc main_arg7) = W2 m ρ c (Proc.devRef .tc main_arg7)).trans (W2_main_arg7 m ρ c))
theorem W4_main_arg12 : W4 m ρ c (Proc.devRef .tc main_arg12) = m ((c : Thread nD τ).loc main_arg12) :=
  (by past_stretch : W4 m ρ c (Proc.devRef .tc main_arg12) = W3 m ρ c (Proc.devRef .tc main_arg12)).trans ((by past_stretch : W3 m ρ c (Proc.devRef .tc main_arg12) = W2 m ρ c (Proc.devRef .tc main_arg12)).trans (W2_main_arg12 m ρ c))
theorem W5_main_arg2 : W5 m ρ c (Proc.devRef .tc main_arg2) = m ((c : Thread nD τ).loc main_arg2) :=
  (W5_of_ne m ρ c main_arg2 (by decide)).trans ((by past_stretch : W4 m ρ c (Proc.devRef .tc main_arg2) = W3 m ρ c (Proc.devRef .tc main_arg2)).trans ((by past_stretch : W3 m ρ c (Proc.devRef .tc main_arg2) = W2 m ρ c (Proc.devRef .tc main_arg2)).trans (W2_main_arg2 m ρ c)))
theorem W5_main_arg3 : W5 m ρ c (Proc.devRef .tc main_arg3) = m ((c : Thread nD τ).loc main_arg3) :=
  (W5_of_ne m ρ c main_arg3 (by decide)).trans ((by past_stretch : W4 m ρ c (Proc.devRef .tc main_arg3) = W3 m ρ c (Proc.devRef .tc main_arg3)).trans ((by past_stretch : W3 m ρ c (Proc.devRef .tc main_arg3) = W2 m ρ c (Proc.devRef .tc main_arg3)).trans (W2_main_arg3 m ρ c)))
theorem W5_main_arg8 : W5 m ρ c (Proc.devRef .tc main_arg8) = m ((c : Thread nD τ).loc main_arg8) :=
  (W5_of_ne m ρ c main_arg8 (by decide)).trans ((by past_stretch : W4 m ρ c (Proc.devRef .tc main_arg8) = W3 m ρ c (Proc.devRef .tc main_arg8)).trans ((by past_stretch : W3 m ρ c (Proc.devRef .tc main_arg8) = W2 m ρ c (Proc.devRef .tc main_arg8)).trans (W2_main_arg8 m ρ c)))
theorem W5_main_arg9 : W5 m ρ c (Proc.devRef .tc main_arg9) = m ((c : Thread nD τ).loc main_arg9) :=
  (W5_of_ne m ρ c main_arg9 (by decide)).trans ((by past_stretch : W4 m ρ c (Proc.devRef .tc main_arg9) = W3 m ρ c (Proc.devRef .tc main_arg9)).trans ((by past_stretch : W3 m ρ c (Proc.devRef .tc main_arg9) = W2 m ρ c (Proc.devRef .tc main_arg9)).trans (W2_main_arg9 m ρ c)))
theorem W5_main_arg13 : W5 m ρ c (Proc.devRef .tc main_arg13) = m ((c : Thread nD τ).loc main_arg13) :=
  (W5_of_ne m ρ c main_arg13 (by decide)).trans ((by past_stretch : W4 m ρ c (Proc.devRef .tc main_arg13) = W3 m ρ c (Proc.devRef .tc main_arg13)).trans ((by past_stretch : W3 m ρ c (Proc.devRef .tc main_arg13) = W2 m ρ c (Proc.devRef .tc main_arg13)).trans (W2_main_arg13 m ρ c)))
theorem W5_main_arg14 : W5 m ρ c (Proc.devRef .tc main_arg14) = m ((c : Thread nD τ).loc main_arg14) :=
  (W5_of_ne m ρ c main_arg14 (by decide)).trans ((by past_stretch : W4 m ρ c (Proc.devRef .tc main_arg14) = W3 m ρ c (Proc.devRef .tc main_arg14)).trans ((by past_stretch : W3 m ρ c (Proc.devRef .tc main_arg14) = W2 m ρ c (Proc.devRef .tc main_arg14)).trans (W2_main_arg14 m ρ c)))
theorem W5_main_arg15 : W5 m ρ c (Proc.devRef .tc main_arg15) = m ((c : Thread nD τ).loc main_arg15) :=
  (W5_of_ne m ρ c main_arg15 (by decide)).trans ((by past_stretch : W4 m ρ c (Proc.devRef .tc main_arg15) = W3 m ρ c (Proc.devRef .tc main_arg15)).trans ((by past_stretch : W3 m ρ c (Proc.devRef .tc main_arg15) = W2 m ρ c (Proc.devRef .tc main_arg15)).trans (W2_main_arg15 m ρ c)))
theorem W5_main_arg16 : W5 m ρ c (Proc.devRef .tc main_arg16) = m ((c : Thread nD τ).loc main_arg16) :=
  (W5_of_ne m ρ c main_arg16 (by decide)).trans ((by past_stretch : W4 m ρ c (Proc.devRef .tc main_arg16) = W3 m ρ c (Proc.devRef .tc main_arg16)).trans ((by past_stretch : W3 m ρ c (Proc.devRef .tc main_arg16) = W2 m ρ c (Proc.devRef .tc main_arg16)).trans (W2_main_arg16 m ρ c)))
theorem W5_main_arg17 : W5 m ρ c (Proc.devRef .tc main_arg17) = m ((c : Thread nD τ).loc main_arg17) :=
  (W5_of_ne m ρ c main_arg17 (by decide)).trans ((by past_stretch : W4 m ρ c (Proc.devRef .tc main_arg17) = W3 m ρ c (Proc.devRef .tc main_arg17)).trans ((by past_stretch : W3 m ρ c (Proc.devRef .tc main_arg17) = W2 m ρ c (Proc.devRef .tc main_arg17)).trans (W2_main_arg17 m ρ c)))
theorem W5_src : W5 m ρ c (Proc.devRef .tc main_v1) = srcRow (m ((c : Thread nD τ).loc main_arg1)) :=
  (W5_of_ne m ρ c main_v1 (by decide)).trans ((by past_stretch : W4 m ρ c (Proc.devRef .tc main_v1) = W3 m ρ c (Proc.devRef .tc main_v1)).trans ((by past_stretch : W3 m ρ c (Proc.devRef .tc main_v1) = W2 m ρ c (Proc.devRef .tc main_v1)).trans (W2_src m ρ c)))
theorem W5_dst : W5 m ρ c (Proc.devRef .tc main_v3) = dstRow (m ((c : Thread nD τ).loc main_arg1)) :=
  (W5_of_ne m ρ c main_v3 (by decide)).trans ((by past_stretch : W4 m ρ c (Proc.devRef .tc main_v3) = W3 m ρ c (Proc.devRef .tc main_v3)).trans ((by past_stretch : W3 m ρ c (Proc.devRef .tc main_v3) = W2 m ρ c (Proc.devRef .tc main_v3)).trans (W2_dst m ρ c)))
theorem W7_main_arg8 : W7 m ρ c (Proc.devRef .tc main_arg8) = m ((c : Thread nD τ).loc main_arg8) :=
  (by past_stretch : W7 m ρ c (Proc.devRef .tc main_arg8) = W6 m ρ c (Proc.devRef .tc main_arg8)).trans ((by past_stretch : W6 m ρ c (Proc.devRef .tc main_arg8) = W5 m ρ c (Proc.devRef .tc main_arg8)).trans (W5_main_arg8 m ρ c))
theorem W7_main_arg9 : W7 m ρ c (Proc.devRef .tc main_arg9) = m ((c : Thread nD τ).loc main_arg9) :=
  (by past_stretch : W7 m ρ c (Proc.devRef .tc main_arg9) = W6 m ρ c (Proc.devRef .tc main_arg9)).trans ((by past_stretch : W6 m ρ c (Proc.devRef .tc main_arg9) = W5 m ρ c (Proc.devRef .tc main_arg9)).trans (W5_main_arg9 m ρ c))
theorem W7_main_arg14 : W7 m ρ c (Proc.devRef .tc main_arg14) = m ((c : Thread nD τ).loc main_arg14) :=
  (by past_stretch : W7 m ρ c (Proc.devRef .tc main_arg14) = W6 m ρ c (Proc.devRef .tc main_arg14)).trans ((by past_stretch : W6 m ρ c (Proc.devRef .tc main_arg14) = W5 m ρ c (Proc.devRef .tc main_arg14)).trans (W5_main_arg14 m ρ c))
theorem W8_main_arg2 : W8 m ρ c (Proc.devRef .tc main_arg2) = m ((c : Thread nD τ).loc main_arg2) :=
  (W8_of_ne m ρ c main_arg2 (by decide)).trans ((by past_stretch : W7 m ρ c (Proc.devRef .tc main_arg2) = W6 m ρ c (Proc.devRef .tc main_arg2)).trans ((by past_stretch : W6 m ρ c (Proc.devRef .tc main_arg2) = W5 m ρ c (Proc.devRef .tc main_arg2)).trans (W5_main_arg2 m ρ c)))
theorem W8_main_arg3 : W8 m ρ c (Proc.devRef .tc main_arg3) = m ((c : Thread nD τ).loc main_arg3) :=
  (W8_of_ne m ρ c main_arg3 (by decide)).trans ((by past_stretch : W7 m ρ c (Proc.devRef .tc main_arg3) = W6 m ρ c (Proc.devRef .tc main_arg3)).trans ((by past_stretch : W6 m ρ c (Proc.devRef .tc main_arg3) = W5 m ρ c (Proc.devRef .tc main_arg3)).trans (W5_main_arg3 m ρ c)))
theorem W8_main_arg15 : W8 m ρ c (Proc.devRef .tc main_arg15) = m ((c : Thread nD τ).loc main_arg15) :=
  (W8_of_ne m ρ c main_arg15 (by decide)).trans ((by past_stretch : W7 m ρ c (Proc.devRef .tc main_arg15) = W6 m ρ c (Proc.devRef .tc main_arg15)).trans ((by past_stretch : W6 m ρ c (Proc.devRef .tc main_arg15) = W5 m ρ c (Proc.devRef .tc main_arg15)).trans (W5_main_arg15 m ρ c)))
theorem W8_main_arg16 : W8 m ρ c (Proc.devRef .tc main_arg16) = m ((c : Thread nD τ).loc main_arg16) :=
  (W8_of_ne m ρ c main_arg16 (by decide)).trans ((by past_stretch : W7 m ρ c (Proc.devRef .tc main_arg16) = W6 m ρ c (Proc.devRef .tc main_arg16)).trans ((by past_stretch : W6 m ρ c (Proc.devRef .tc main_arg16) = W5 m ρ c (Proc.devRef .tc main_arg16)).trans (W5_main_arg16 m ρ c)))
theorem W8_main_arg17 : W8 m ρ c (Proc.devRef .tc main_arg17) = m ((c : Thread nD τ).loc main_arg17) :=
  (W8_of_ne m ρ c main_arg17 (by decide)).trans ((by past_stretch : W7 m ρ c (Proc.devRef .tc main_arg17) = W6 m ρ c (Proc.devRef .tc main_arg17)).trans ((by past_stretch : W6 m ρ c (Proc.devRef .tc main_arg17) = W5 m ρ c (Proc.devRef .tc main_arg17)).trans (W5_main_arg17 m ρ c)))
theorem W8_src : W8 m ρ c (Proc.devRef .tc main_v1) = srcRow (m ((c : Thread nD τ).loc main_arg1)) :=
  (W8_of_ne m ρ c main_v1 (by decide)).trans ((by past_stretch : W7 m ρ c (Proc.devRef .tc main_v1) = W6 m ρ c (Proc.devRef .tc main_v1)).trans ((by past_stretch : W6 m ρ c (Proc.devRef .tc main_v1) = W5 m ρ c (Proc.devRef .tc main_v1)).trans (W5_src m ρ c)))
theorem W8_dst : W8 m ρ c (Proc.devRef .tc main_v3) = dstRow (m ((c : Thread nD τ).loc main_arg1)) :=
  (W8_of_ne m ρ c main_v3 (by decide)).trans ((by past_stretch : W7 m ρ c (Proc.devRef .tc main_v3) = W6 m ρ c (Proc.devRef .tc main_v3)).trans ((by past_stretch : W6 m ρ c (Proc.devRef .tc main_v3) = W5 m ρ c (Proc.devRef .tc main_v3)).trans (W5_dst m ρ c)))
theorem W10_main_arg3 : W10 m ρ c (Proc.devRef .tc main_arg3) = m ((c : Thread nD τ).loc main_arg3) :=
  (by past_stretch : W10 m ρ c (Proc.devRef .tc main_arg3) = W9 m ρ c (Proc.devRef .tc main_arg3)).trans ((by past_stretch : W9 m ρ c (Proc.devRef .tc main_arg3) = W8 m ρ c (Proc.devRef .tc main_arg3)).trans (W8_main_arg3 m ρ c))
theorem W10_main_arg16 : W10 m ρ c (Proc.devRef .tc main_arg16) = m ((c : Thread nD τ).loc main_arg16) :=
  (by past_stretch : W10 m ρ c (Proc.devRef .tc main_arg16) = W9 m ρ c (Proc.devRef .tc main_arg16)).trans ((by past_stretch : W9 m ρ c (Proc.devRef .tc main_arg16) = W8 m ρ c (Proc.devRef .tc main_arg16)).trans (W8_main_arg16 m ρ c))
theorem W10_main_arg17 : W10 m ρ c (Proc.devRef .tc main_arg17) = m ((c : Thread nD τ).loc main_arg17) :=
  (by past_stretch : W10 m ρ c (Proc.devRef .tc main_arg17) = W9 m ρ c (Proc.devRef .tc main_arg17)).trans ((by past_stretch : W9 m ρ c (Proc.devRef .tc main_arg17) = W8 m ρ c (Proc.devRef .tc main_arg17)).trans (W8_main_arg17 m ρ c))

/-! ## Each later stretch is one aggregation; the last also reads out -/

/-- The clamp after the bias, over any buffer contents. -/
theorem clamp1 (v : Valuation τ sig (Elt Ideal)) : StableHlo.after hostOps1_1 v (Proc.devRef .tc main_v21)
    = maximumf (v (Proc.devRef .tc main_v20))
        (broadcastInDim S50000x128 ![] bcast_S_S50000x128 (constant (F := Ideal) S_ .f32 0x00000000#32)) := by
  after_results_simp <;> rfl

set_option maxHeartbeats 2000000 in
/-- The stretch up to the bias, over any buffer contents. -/
theorem sumAny1 (v : Valuation τ sig (Elt Ideal)) : StableHlo.after hostOps1 v (Proc.devRef .tc main_v20)
    = edgeSum (v (Proc.devRef .tc main_v4)) (v (Proc.devRef .tc main_v1)) (v (Proc.devRef .tc main_v3))
        (v (Proc.devRef .tc main_arg2)) (v (Proc.devRef .tc main_arg11)) := by
  unfold edgeSum
  after_results_simp

theorem sum1 : W3 m ρ c (Proc.devRef .tc main_v20)
    = edgeSum (W2 m ρ c (Proc.devRef .tc main_v4)) (W2 m ρ c (Proc.devRef .tc main_v1)) (W2 m ρ c (Proc.devRef .tc main_v3))
        (W2 m ρ c (Proc.devRef .tc main_arg2)) (W2 m ρ c (Proc.devRef .tc main_arg11)) :=
  sumAny1 (W2 m ρ c)

theorem agg1 : W4 m ρ c (Proc.devRef .tc main_v21)
    = aggregate (W2 m ρ c (Proc.devRef .tc main_v4)) (W2 m ρ c (Proc.devRef .tc main_v1)) (W2 m ρ c (Proc.devRef .tc main_v3))
        (W2 m ρ c (Proc.devRef .tc main_arg2)) (W2 m ρ c (Proc.devRef .tc main_arg11)) :=
  (clamp1 (W3 m ρ c)).trans (by rw [sum1]; rfl)

/-- The clamp after the bias, over any buffer contents. -/
theorem clamp2 (v : Valuation τ sig (Elt Ideal)) : StableHlo.after hostOps2_1 v (Proc.devRef .tc main_v39)
    = maximumf (v (Proc.devRef .tc main_v38))
        (broadcastInDim S50000x128 ![] bcast_S_S50000x128 (constant (F := Ideal) S_ .f32 0x00000000#32)) := by
  after_results_simp <;> rfl

set_option maxHeartbeats 2000000 in
/-- The stretch up to the bias, over any buffer contents. -/
theorem sumAny2 (v : Valuation τ sig (Elt Ideal)) : StableHlo.after hostOps2 v (Proc.devRef .tc main_v38)
    = edgeSum (v (Proc.devRef .tc main_v22)) (v (Proc.devRef .tc main_v1)) (v (Proc.devRef .tc main_v3))
        (v (Proc.devRef .tc main_arg2)) (v (Proc.devRef .tc main_arg13)) := by
  unfold edgeSum
  after_results_simp

theorem sum2 : W6 m ρ c (Proc.devRef .tc main_v38)
    = edgeSum (W5 m ρ c (Proc.devRef .tc main_v22)) (W5 m ρ c (Proc.devRef .tc main_v1)) (W5 m ρ c (Proc.devRef .tc main_v3))
        (W5 m ρ c (Proc.devRef .tc main_arg2)) (W5 m ρ c (Proc.devRef .tc main_arg13)) :=
  sumAny2 (W5 m ρ c)

theorem agg2 : W7 m ρ c (Proc.devRef .tc main_v39)
    = aggregate (W5 m ρ c (Proc.devRef .tc main_v22)) (W5 m ρ c (Proc.devRef .tc main_v1)) (W5 m ρ c (Proc.devRef .tc main_v3))
        (W5 m ρ c (Proc.devRef .tc main_arg2)) (W5 m ρ c (Proc.devRef .tc main_arg13)) :=
  (clamp2 (W6 m ρ c)).trans (by rw [sum2]; rfl)

/-- The clamp after the bias, over any buffer contents. -/
theorem clamp3 (v : Valuation τ sig (Elt Ideal)) : StableHlo.after hostOps3_1 v (Proc.devRef .tc main_v57)
    = maximumf (v (Proc.devRef .tc main_v56))
        (broadcastInDim S50000x128 ![] bcast_S_S50000x128 (constant (F := Ideal) S_ .f32 0x00000000#32)) := by
  after_results_simp <;> rfl

set_option maxHeartbeats 2000000 in
/-- The stretch up to the bias, over any buffer contents. -/
theorem sumAny3 (v : Valuation τ sig (Elt Ideal)) : StableHlo.after hostOps3 v (Proc.devRef .tc main_v56)
    = edgeSum (v (Proc.devRef .tc main_v40)) (v (Proc.devRef .tc main_v1)) (v (Proc.devRef .tc main_v3))
        (v (Proc.devRef .tc main_arg2)) (v (Proc.devRef .tc main_arg15)) := by
  unfold edgeSum
  after_results_simp

theorem sum3 : W9 m ρ c (Proc.devRef .tc main_v56)
    = edgeSum (W8 m ρ c (Proc.devRef .tc main_v40)) (W8 m ρ c (Proc.devRef .tc main_v1)) (W8 m ρ c (Proc.devRef .tc main_v3))
        (W8 m ρ c (Proc.devRef .tc main_arg2)) (W8 m ρ c (Proc.devRef .tc main_arg15)) :=
  sumAny3 (W8 m ρ c)

theorem agg3 : W10 m ρ c (Proc.devRef .tc main_v57)
    = aggregate (W8 m ρ c (Proc.devRef .tc main_v40)) (W8 m ρ c (Proc.devRef .tc main_v1)) (W8 m ρ c (Proc.devRef .tc main_v3))
        (W8 m ρ c (Proc.devRef .tc main_arg2)) (W8 m ρ c (Proc.devRef .tc main_arg15)) :=
  (clamp3 (W9 m ρ c)).trans (by rw [sum3]; rfl)

/-- The read-out stretch, over any buffer contents. -/
theorem readoutAny (v : Valuation τ sig (Elt Ideal)) : StableHlo.after hostOps3_2 v (Proc.devRef .tc main_v72)
    = readout (v (Proc.devRef .tc main_v57)) (v (Proc.devRef .tc main_arg3))
        (v (Proc.devRef .tc main_arg16)) (v (Proc.devRef .tc main_arg17)) := by
  unfold readout
  after_results_simp

theorem out4 : W11 m ρ c (Proc.devRef .tc main_v72)
    = readout (W10 m ρ c (Proc.devRef .tc main_v57)) (W10 m ρ c (Proc.devRef .tc main_arg3))
        (W10 m ρ c (Proc.devRef .tc main_arg16)) (W10 m ρ c (Proc.devRef .tc main_arg17)) :=
  readoutAny (W10 m ρ c)

/-! ## The result -/

/-- The three regions' output arrays, each the dense stage of the region's input arrays as the region finds them. -/
structure Dense : Prop where
  r0 : ∀ (V : (c : Dev nD) → (b : Ref sig .tc) → Buf (Elt Ideal) ((c : Thread nD τ).loc b)) (c : Dev nD),
    (dat0 (F := Ideal) V c).arrAt 4 cfg0.N
      = normProject (a := 50000) (d := 100) (n := 128) cnt100 epsLN (V c main_arg0) (V c main_arg4) (V c main_arg5) (V c main_arg10)
  r1 : ∀ (V : (c : Dev nD) → (b : Ref sig .tc) → Buf (Elt Ideal) ((c : Thread nD τ).loc b)) (c : Dev nD),
    (dat1 (F := Ideal) V c).arrAt 4 cfg1.N
      = normProject (a := 50000) (d := 128) (n := 128) cnt128 epsLN (V c main_v21) (V c main_arg6) (V c main_arg7) (V c main_arg12)
  r2 : ∀ (V : (c : Dev nD) → (b : Ref sig .tc) → Buf (Elt Ideal) ((c : Thread nD τ).loc b)) (c : Dev nD),
    (dat2 (F := Ideal) V c).arrAt 4 cfg2.N
      = normProject (a := 50000) (d := 128) (n := 128) cnt128 epsLN (V c main_v39) (V c main_arg8) (V c main_arg9) (V c main_arg14)

/-- The first layer's features, where the second region finds them. -/
theorem feat1 (hd : Dense) : W4 m ρ c (Proc.devRef .tc main_v21)
    = layer1 (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg10))
        (m ((c : Thread nD τ).loc main_arg11)) := by
  rw [agg1, W2_src, W2_dst, W2_main_arg2, W2_main_arg11, W2_arr m ρ c 4, hd.r0 (V1 m ρ) c]
  show aggregate (normProject (a := 50000) (d := 100) (n := 128) cnt100 epsLN (W1 m ρ c (Proc.devRef .tc main_arg0))
    (W1 m ρ c (Proc.devRef .tc main_arg4)) (W1 m ρ c (Proc.devRef .tc main_arg5)) (W1 m ρ c (Proc.devRef .tc main_arg10))) _ _ _ _ = _
  rw [W1_main_arg0, W1_main_arg4, W1_main_arg5, W1_main_arg10]
  rfl

/-- The second layer's features, where the third region finds them. -/
theorem feat2 (hd : Dense) : W7 m ρ c (Proc.devRef .tc main_v39)
    = layerNext (layer1 (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg10))
        (m ((c : Thread nD τ).loc main_arg11)))
        (m ((c : Thread nD τ).loc main_arg1)) (m ((c : Thread nD τ).loc main_arg2))
        (m ((c : Thread nD τ).loc main_arg6)) (m ((c : Thread nD τ).loc main_arg7)) (m ((c : Thread nD τ).loc main_arg12))
        (m ((c : Thread nD τ).loc main_arg13)) := by
  rw [agg2, W5_src, W5_dst, W5_main_arg2, W5_main_arg13, W5_arr m ρ c 4, hd.r1 (V4 m ρ) c]
  show aggregate (normProject (a := 50000) (d := 128) (n := 128) cnt128 epsLN (W4 m ρ c (Proc.devRef .tc main_v21))
    (W4 m ρ c (Proc.devRef .tc main_arg6)) (W4 m ρ c (Proc.devRef .tc main_arg7)) (W4 m ρ c (Proc.devRef .tc main_arg12))) _ _ _ _ = _
  rw [feat1 m ρ c hd, W4_main_arg6, W4_main_arg7, W4_main_arg12]
  rfl

/-- The third layer's features. -/
theorem feat3 (hd : Dense) : W10 m ρ c (Proc.devRef .tc main_v57)
    = layerNext (layerNext (layer1 (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg10))
        (m ((c : Thread nD τ).loc main_arg11)))
        (m ((c : Thread nD τ).loc main_arg1)) (m ((c : Thread nD τ).loc main_arg2))
        (m ((c : Thread nD τ).loc main_arg6)) (m ((c : Thread nD τ).loc main_arg7)) (m ((c : Thread nD τ).loc main_arg12))
        (m ((c : Thread nD τ).loc main_arg13)))
        (m ((c : Thread nD τ).loc main_arg1)) (m ((c : Thread nD τ).loc main_arg2))
        (m ((c : Thread nD τ).loc main_arg8)) (m ((c : Thread nD τ).loc main_arg9)) (m ((c : Thread nD τ).loc main_arg14))
        (m ((c : Thread nD τ).loc main_arg15)) := by
  rw [agg3, W8_src, W8_dst, W8_main_arg2, W8_main_arg15, W8_arr m ρ c 4, hd.r2 (V7 m ρ) c]
  show aggregate (normProject (a := 50000) (d := 128) (n := 128) cnt128 epsLN (W7 m ρ c (Proc.devRef .tc main_v39))
    (W7 m ρ c (Proc.devRef .tc main_arg8)) (W7 m ρ c (Proc.devRef .tc main_arg9)) (W7 m ρ c (Proc.devRef .tc main_arg14))) _ _ _ _ = _
  rw [feat2 m ρ c hd, W7_main_arg8, W7_main_arg9, W7_main_arg14]
  rfl

/-- The result buffer at the end of the fold: the network of the arguments. -/
theorem result (hd : Dense) : W11 m ρ c (Proc.devRef .tc main_v72)
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15)) (m ((c : Thread nD τ).loc main_arg16)) (m ((c : Thread nD τ).loc main_arg17)) := by
  rw [out4, feat3 m ρ c hd, W10_main_arg3, W10_main_arg16, W10_main_arg17]
  rfl

end Cert.KernelIdeal.Fold

end
-- ==== Proof.TileEntry.lean ====
/-
  A tile's payload read at an entry: the normalised tile times the weight matrix.

  Each of the three dense stages computes, on one tile of rows, the layer normalisation of every row — the row
  mean as a lane sum divided by the count, the centred tile, its second moment plus epsilon under the reciprocal
  square root, then the scale row and the shift row broadcast down the rows — and multiplies the normalised tile by
  the weight matrix, accumulating into zero. The change of float format before the product is the identity on the
  extended reals. So entry (p, q) of the payload is the sum over k of the layer norm of row p at k times w (k, q).
  The statement is proved once over generic extents and then read at the three stages' literal shapes; the later
  stages first recast the tile to its own shape, which is the identity.
-/
import proofs.«146366_j65000035058580_1_alg».proof.Proof.Gen.KernelIdeal.Skeleton
import proofs.«146366_j65000035058580_1_alg».proof.Proof.NormProject

noncomputable section

namespace Cert.KernelIdeal.TileEntry

open Idealize.ShloMosaic Idealize.ShloMosaic.ValueIdx

/-- The matrix product, accumulated into zero, of the layer-normalised [a, d] tile (scale and shift given as
    vectors recast to one-row matrices) with a [d, n] matrix, both passed through the change of float format:
    entry (p, q) is the sum over k of the layer norm of row p at k times w (k, q). -/
theorem normed_matmul_apply {a d n : ℕ}
    (dd : DotDims ⟨2, ![a, d]⟩ ⟨2, ![d, n]⟩ ⟨2, ![a, n]⟩)
    (h1 : dd.lhsContracting = [1]) (h2 : dd.rhsContracting = [0]) (h3 : dd.lhsNonContracting = [0])
    (h4 : dd.rhsNonContracting = [1]) (h5 : dd.lhsBatch = []) (h6 : dd.rhsBatch = [])
    (v : FVec Ideal ⟨2, ![a, d]⟩ .f32) (g bb : FVec Ideal ⟨1, ![d]⟩ .f32) (w : FVec Ideal ⟨2, ![d, n]⟩ .f32)
    (wc we : BitVec 32)
    (hR : Shape.Reduces ⟨2, ![a, d]⟩ [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, d]⟩)
    (hG : (⟨2, ![1, d]⟩ : Shape).Broadcasts ⟨2, ![a, d]⟩)
    (hc : (⟨1, ![d]⟩ : Shape).ShapeCasts ⟨2, ![1, d]⟩)
    (hb : FTy.bits .bf16 < FTy.bits .f32)
    (prec : Option ContractPrecision) (p : Fin a) (q : Fin n) :
    FloatOps.matmul dd prec
        (truncf .bf16 (LayerNorm.normed v (shapeCast ⟨2, ![1, d]⟩ g hc) (shapeCast ⟨2, ![1, d]⟩ bb hc)
          wc we hR hφ hacc hC hB hG) hb : FVec Ideal ⟨2, ![a, d]⟩ .bf16)
        (truncf .bf16 w hb : FVec Ideal ⟨2, ![d, n]⟩ .bf16)
        (constant ⟨2, ![a, n]⟩ .f32 0x00000000#32) (ix2 p q)
      = ∑ k : Fin d, LayerNorm.lnorm (Ideal.ofBits .f32 wc) (Ideal.ofBits .f32 we) (fun j => v (ix2 p j))
          (fun j => g (ix1 j)) (fun j => bb (ix1 j)) k * w (ix2 k q) := by
  rw [DotRecord.matmul_zero_apply dd h1 h2 h3 h4 h5 h6]
  refine Finset.sum_congr rfl fun k _ => ?_
  rw [truncf_apply, truncf_apply, LayerNorm.normed_apply]
  simp only [LayerNorm.rowOf_apply]

/-- The first stage's payload at (p, q): rows of 100 entries, count 100. -/
theorem pay0_apply (v0 : Vec Ideal S5000x100 .f32) (v17 v21 : Vec Ideal S100 .f32) (v26 : Vec Ideal S100x128 .f32)
    (p : Fin 5000) (q : Fin 128) :
    Gen.k0_pay1 (F := Ideal) v0 v17 v21 v26 (ix2 p q)
      = ∑ k : Fin 100, LayerNorm.lnorm NormProject.cnt100 NormProject.epsLN (fun j => v0 (ix2 p j))
          (fun j => v17 (ix1 j)) (fun j => v21 (ix1 j)) k * v26 (ix2 k q) :=
  normed_matmul_apply (a := 5000) (d := 100) (n := 128) dot_S5000x100_S100x128_S5000x128_1_0_0_1_n_n
    rfl rfl rfl rfl rfl rfl v0 v17 v21 v26 0x42C80000#32 0x3727C5AC#32
    Gen.reduces_S5000x100_S5000 (.inl rfl) rfl Gen.shapeCasts_S5000_S5000x1 Gen.broadcasts_S5000x1_S5000x100
    Gen.broadcasts_S1x100_S5000x100 Gen.shapeCasts_S100_S1x100 Gen.bitsLt_bf16_f32 none p q

/-- The second stage's payload at (p, q): rows of 128 entries, count 128; the tile is first recast to its own
    shape, which changes nothing. -/
theorem pay1_apply (v0 : Vec Ideal S5000x128 .f32) (v18 v22 : Vec Ideal S128 .f32) (v27 : Vec Ideal S128x128 .f32)
    (p : Fin 5000) (q : Fin 128) :
    Gen.k1_pay1 (F := Ideal) v0 v18 v22 v27 (ix2 p q)
      = ∑ k : Fin 128, LayerNorm.lnorm NormProject.cnt128 NormProject.epsLN (fun j => v0 (ix2 p j))
          (fun j => v18 (ix1 j)) (fun j => v22 (ix1 j)) k * v27 (ix2 k q) := by
  refine (normed_matmul_apply (a := 5000) (d := 128) (n := 128) dot_S5000x128_S128x128_S5000x128_1_0_0_1_n_n
    rfl rfl rfl rfl rfl rfl (shapeCast S5000x128 v0 Gen.shapeCasts_S5000x128_S5000x128) v18 v22 v27
    0x43000000#32 0x3727C5AC#32
    Gen.reduces_S5000x128_S5000 (.inl rfl) rfl Gen.shapeCasts_S5000_S5000x1 Gen.broadcasts_S5000x1_S5000x128
    Gen.broadcasts_S1x128_S5000x128 Gen.shapeCasts_S128_S1x128 Gen.bitsLt_bf16_f32 none p q).trans ?_
  rw [shapeCast_self]

/-- The third stage's payload at (p, q): the same as the second's. -/
theorem pay2_apply (v0 : Vec Ideal S5000x128 .f32) (v18 v22 : Vec Ideal S128 .f32) (v27 : Vec Ideal S128x128 .f32)
    (p : Fin 5000) (q : Fin 128) :
    Gen.k2_pay1 (F := Ideal) v0 v18 v22 v27 (ix2 p q)
      = ∑ k : Fin 128, LayerNorm.lnorm NormProject.cnt128 NormProject.epsLN (fun j => v0 (ix2 p j))
          (fun j => v18 (ix1 j)) (fun j => v22 (ix1 j)) k * v27 (ix2 k q) := by
  refine (normed_matmul_apply (a := 5000) (d := 128) (n := 128) dot_S5000x128_S128x128_S5000x128_1_0_0_1_n_n
    rfl rfl rfl rfl rfl rfl (shapeCast S5000x128 v0 Gen.shapeCasts_S5000x128_S5000x128) v18 v22 v27
    0x43000000#32 0x3727C5AC#32
    Gen.reduces_S5000x128_S5000 (.inl rfl) rfl Gen.shapeCasts_S5000_S5000x1 Gen.broadcasts_S5000x1_S5000x128
    Gen.broadcasts_S1x128_S5000x128 Gen.shapeCasts_S128_S1x128 Gen.bitsLt_bf16_f32 none p q).trans ?_
  rw [shapeCast_self]

end Cert.KernelIdeal.TileEntry

end
-- ==== Proof.Blocks0.lean ====
/-
  From the tiles to the whole array: the first dense stage.

  The stage runs over a grid of ten points. Point t reads rows 5000·t … 5000·t + 4999 of the input array as one tile,
  together with the whole scale row, shift row and weight matrix, and writes one tile of 5000 rows and 128 columns
  back to rows 5000·t … of the output array. Each entry of the tile it writes is the layer norm of the input row
  (count 100) multiplied into a column of the weight matrix, which is the entry of the normalised-and-projected
  whole array at the same row and column. The ten tiles are disjoint row blocks that cover all 50000 rows, so after
  the region the output array is the normalised-and-projected array of the four arrays the region reads. Everything
  is stated for arbitrary contents of those arrays on entry to the region.
-/
import proofs.«146366_j65000035058580_1_alg».proof.Proof.Gen.KernelIdeal.Frame
import proofs.«146366_j65000035058580_1_alg».proof.Proof.NormProject
import proofs.«146366_j65000035058580_1_alg».proof.Proof.TileEntry
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The offsets of a whole rank-2 tile are zero on both axes. -/
private theorem zero2 : (![0, 0] : Fin 2 → Nat) = fun _ => 0 := funext fun a => by fin_cases a <;> rfl
/-- The offset of a whole rank-1 row is zero. -/
private theorem zero1 : (![0] : Fin 1 → Nat) = fun _ => 0 := funext fun a => by fin_cases a <;> rfl

/-- The block indices over the grid of ten row tiles: the input tile and the output tile of point t are both row
    block t (column block 0); the scale row, the shift row and the weight matrix are always their one block 0. -/
theorem blockIndex0 : ∀ t : Fin cfg0.N,
    win0_0.index t (0 : Fin 2) = t.val ∧ win0_0.index t (1 : Fin 2) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The input tile at point t holds rows 5000·t … 5000·t + 4999 of the input array: entry (y₀, y₁) of the tile is
    entry (5000·t + y₀, y₁) of the array. -/
theorem rowTile0 (c : Dev nD) (t : Fin cfg0.N) (y : S5000x100.Idx) (i : S50000x100.Idx)
    (h0 : (i 0).val = t.val * 5000 + (y 0).val) (h1 : (i 1).val = (y 1).val) :
    (iblk0 (F := Ideal) V c 0 t : Vec Ideal S5000x100 .f32) y = (V c main_arg0 : S50000x100.Idx → EReal) i := by
  obtain ⟨e0, e1, -⟩ := blockIndex0 t
  show (V c main_arg0 : S50000x100.Idx → EReal) (((cfg0.win 0).blk t).view.emb y) = _
  congr 1
  funext a; apply Fin.ext
  match a with
  | ⟨0, _⟩ => show win0_0.index t (0 : Fin 2) * 5000 + 1 * (y 0).val = (i 0).val; rw [e0, h0]; omega
  | ⟨1, _⟩ => show win0_0.index t (1 : Fin 2) * 100 + 1 * (y 1).val = (i 1).val; rw [e1, h1]; omega

/-- The scale row's block at every point is the whole scale row. -/
theorem scale0 (c : Dev nD) (t : Fin cfg0.N) :
    (iblk0 (F := Ideal) V c 1 t : Vec Ideal S100 .f32) = (V c main_arg4 : S100.Idx → EReal) := by
  obtain ⟨-, -, e, -⟩ := blockIndex0 t
  funext y
  show (V c main_arg4 : S100.Idx → EReal) (((cfg0.win 1).blk t).view.emb y) = _
  congr 1
  funext a; apply Fin.ext
  match a with
  | ⟨0, _⟩ => show win0_1.index t (0 : Fin 1) * 100 + 1 * (y 0).val = (y 0).val; rw [e]; omega

/-- The shift row's block at every point is the whole shift row. -/
theorem shift0 (c : Dev nD) (t : Fin cfg0.N) :
    (iblk0 (F := Ideal) V c 2 t : Vec Ideal S100 .f32) = (V c main_arg5 : S100.Idx → EReal) := by
  obtain ⟨-, -, -, e, -⟩ := blockIndex0 t
  funext y
  show (V c main_arg5 : S100.Idx → EReal) (((cfg0.win 2).blk t).view.emb y) = _
  congr 1
  funext a; apply Fin.ext
  match a with
  | ⟨0, _⟩ => show win0_2.index t (0 : Fin 1) * 100 + 1 * (y 0).val = (y 0).val; rw [e]; omega

/-- The weight matrix's block at every point is the whole matrix. -/
theorem weight0 (c : Dev nD) (t : Fin cfg0.N) :
    (iblk0 (F := Ideal) V c 3 t : Vec Ideal S100x128 .f32) = (V c main_arg10 : S100x128.Idx → EReal) := by
  obtain ⟨-, -, -, -, e0, e1, -⟩ := blockIndex0 t
  funext y
  show (V c main_arg10 : S100x128.Idx → EReal) (((cfg0.win 3).blk t).view.emb y) = _
  congr 1
  funext a; apply Fin.ext
  match a with
  | ⟨0, _⟩ => show win0_3.index t (0 : Fin 2) * 100 + 1 * (y 0).val = (y 0).val; rw [e0]; omega
  | ⟨1, _⟩ => show win0_3.index t (1 : Fin 2) * 128 + 1 * (y 1).val = (y 1).val; rw [e1]; omega

/-- An index of the output array lies in point t's tile iff each coordinate lies in the tile's range on its axis. -/
theorem mem_tile0 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v4).slice (win0_4.rect t)).set ↔ _
  rw [View.set_slice_whole, Rect.mem_set_unit]
  exact Iff.rfl

/-- The ten tiles cover the output array: row r lies in the tile of point r / 5000. -/
theorem cover0 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : grid0.N = 10 := N_0
  let t : Fin cfg0.N := ⟨(i 0).val / 5000, by show _ < grid0.N; rw [hN]; omega⟩
  obtain ⟨-, -, -, -, -, -, e0, e1⟩ := blockIndex0 t
  have ht : t.val = (i 0).val / 5000 := rfl
  refine ⟨t, flush0_4 t, ?_⟩
  rw [mem_tile0]
  intro a
  match a with
  | ⟨0, _⟩ => show win0_4.index t (0 : Fin 2) * 5000 ≤ (i 0).val ∧ (i 0).val < win0_4.index t (0 : Fin 2) * 5000 + 5000; rw [e0, ht]; omega
  | ⟨1, _⟩ => show win0_4.index t (1 : Fin 2) * 128 ≤ (i 1).val ∧ (i 1).val < win0_4.index t (1 : Fin 2) * 128 + 128; rw [e1]; omega

/-- One entry of a tile's payload, when the tile x0 holds rows 5000·n … of the array A0 and the other three operands
    are the whole scale row, shift row and weight matrix: it is the entry of the normalised-and-projected array at
    the same row of the whole array and the same column. -/
theorem tileEntry0 (x0 : Vec Ideal S5000x100 .f32) (x1 x2 : Vec Ideal S100 .f32) (x3 : Vec Ideal S100x128 .f32)
    (A0 : S50000x100.Idx → EReal) (A1 A2 : S100.Idx → EReal) (A3 : S100x128.Idx → EReal) (n : ℕ)
    (h0 : ∀ (y : S5000x100.Idx) (i : S50000x100.Idx), (i 0).val = n * 5000 + (y 0).val → (i 1).val = (y 1).val → x0 y = A0 i)
    (h1 : x1 = A1) (h2 : x2 = A2) (h3 : x3 = A3)
    (j : S5000x128.Idx) (i : S50000x128.Idx) (hi0 : (i 0).val = n * 5000 + (j 0).val) (hi1 : (i 1).val = (j 1).val) :
    k0_pay1 (F := Ideal) x0 x1 x2 x3 j
      = NormProject.normProject NormProject.cnt100 NormProject.epsLN A0 A1 A2 A3 i := by
  subst h1 h2 h3
  obtain ⟨p, q, rfl⟩ : ∃ (p : Fin 5000) (q : Fin 128), j = ix2 p q := ⟨j 0, j 1, eq_ix2 j⟩
  obtain ⟨p', q', rfl⟩ : ∃ (p' : Fin 50000) (q' : Fin 128), i = ix2 p' q' := ⟨i 0, i 1, eq_ix2 i⟩
  have hp : p'.val = n * 5000 + p.val := hi0
  obtain rfl : q' = q := Fin.ext hi1
  rw [TileEntry.pay0_apply, NormProject.normProject_apply]
  have hrow : (fun jj : Fin 100 => x0 (ix2 p jj)) = fun jj => A0 (ix2 p' jj) :=
    funext fun jj => h0 (ix2 p jj) (ix2 p' jj) hp rfl
  rw [hrow]

/-- What point t writes back is tile t of the normalised-and-projected array of the four input arrays. -/
theorem flushed0 (c : Dev nD) (t : Fin cfg0.N) :
    (dat0 (F := Ideal) V c).flushed 4 t = ((cfg0.win 4).blk t).view.read (Elt Ideal)
      (NormProject.normProject NormProject.cnt100 NormProject.epsLN (V c main_arg0 : S50000x100.Idx → EReal)
        (V c main_arg4 : S100.Idx → EReal) (V c main_arg5 : S100.Idx → EReal) (V c main_arg10 : S100x128.Idx → EReal)) := by
  show (cfg0.win 4).cut (grid0.coords t) ((dat0 V c).after 4 t) = _
  rw [after0_4]
  unfold out0_4
  rw [View.canon_unit_zero zero2]
  simp only [View.ld_unit_zero (S := S5000x100) zero2, View.ld_unit_zero (S := S100) zero1, View.ld_unit_zero (S := S100x128) zero2]
  obtain ⟨-, -, -, -, -, -, e0, e1⟩ := blockIndex0 t
  funext j
  refine tileEntry0 _ _ _ _ _ _ _ _ t.val (fun y i h0 h1 => rowTile0 V c t y i h0 h1) (scale0 V c t) (shift0 V c t)
    (weight0 V c t) j _ ?_ ?_
  · show win0_4.index t (0 : Fin 2) * 5000 + 1 * (j 0).val = t.val * 5000 + (j 0).val
    rw [e0]; omega
  · show win0_4.index t (1 : Fin 2) * 128 + 1 * (j 1).val = (j 1).val
    rw [e1]; omega

/-- The first stage's output array after its region: the normalised-and-projected array of the four arrays the
    region reads, as the region finds them. -/
theorem final0 (c : Dev nD) :
    (dat0 (F := Ideal) V c).arrAt 4 cfg0.N
      = NormProject.normProject NormProject.cnt100 NormProject.epsLN (V c main_arg0 : S50000x100.Idx → EReal)
          (V c main_arg4 : S100.Idx → EReal) (V c main_arg5 : S100.Idx → EReal) (V c main_arg10 : S100x128.Idx → EReal) :=
  (dat0 (F := Ideal) V c).arrAt_eq_of_cover 4 _ (fun t _ => flushed0 V c t) cover0

end Cert.KernelIdeal.Blocks

end
-- ==== Proof.Blocks1.lean ====
/-
  From the tiles to the whole array: the second dense stage.

  The stage runs over a grid of ten points. Point t reads rows 5000·t … 5000·t + 4999 of the input array as one tile,
  together with the whole scale row, shift row and weight matrix, and writes one tile of 5000 rows and 128 columns
  back to rows 5000·t … of the output array. Each entry of the tile it writes is the layer norm of the input row
  (count 128) multiplied into a column of the weight matrix, which is the entry of the normalised-and-projected
  whole array at the same row and column. The ten tiles are disjoint row blocks that cover all 50000 rows, so after
  the region the output array is the normalised-and-projected array of the four arrays the region reads. Everything
  is stated for arbitrary contents of those arrays on entry to the region.
-/
import proofs.«146366_j65000035058580_1_alg».proof.Proof.Gen.KernelIdeal.Frame
import proofs.«146366_j65000035058580_1_alg».proof.Proof.NormProject
import proofs.«146366_j65000035058580_1_alg».proof.Proof.TileEntry
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The offsets of a whole rank-2 tile are zero on both axes. -/
private theorem zero2 : (![0, 0] : Fin 2 → Nat) = fun _ => 0 := funext fun a => by fin_cases a <;> rfl
/-- The offset of a whole rank-1 row is zero. -/
private theorem zero1 : (![0] : Fin 1 → Nat) = fun _ => 0 := funext fun a => by fin_cases a <;> rfl

/-- The block indices over the grid of ten row tiles: the input tile and the output tile of point t are both row
    block t (column block 0); the scale row, the shift row and the weight matrix are always their one block 0. -/
theorem blockIndex1 : ∀ t : Fin cfg1.N,
    win1_0.index t (0 : Fin 2) = t.val ∧ win1_0.index t (1 : Fin 2) = 0
    ∧ win1_1.index t (0 : Fin 1) = 0 ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The input tile at point t holds rows 5000·t … 5000·t + 4999 of the input array: entry (y₀, y₁) of the tile is
    entry (5000·t + y₀, y₁) of the array. -/
theorem rowTile1 (c : Dev nD) (t : Fin cfg1.N) (y : S5000x128.Idx) (i : S50000x128.Idx)
    (h0 : (i 0).val = t.val * 5000 + (y 0).val) (h1 : (i 1).val = (y 1).val) :
    (iblk1 (F := Ideal) V c 0 t : Vec Ideal S5000x128 .f32) y = (V c main_v21 : S50000x128.Idx → EReal) i := by
  obtain ⟨e0, e1, -⟩ := blockIndex1 t
  show (V c main_v21 : S50000x128.Idx → EReal) (((cfg1.win 0).blk t).view.emb y) = _
  congr 1
  funext a; apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The scale row's block at every point is the whole scale row. -/
theorem scale1 (c : Dev nD) (t : Fin cfg1.N) :
    (iblk1 (F := Ideal) V c 1 t : Vec Ideal S128 .f32) = (V c main_arg6 : S128.Idx → EReal) := by
  obtain ⟨-, -, e, -⟩ := blockIndex1 t
  funext y
  show (V c main_arg6 : S128.Idx → EReal) (((cfg1.win 1).blk t).view.emb y) = _
  congr 1
  funext a; apply Fin.ext
  match a with
  | ⟨0, _⟩ => show win1_1.index t (0 : Fin 1) * 128 + 1 * (y 0).val = (y 0).val; rw [e]; omega

/-- The shift row's block at every point is the whole shift row. -/
theorem shift1 (c : Dev nD) (t : Fin cfg1.N) :
    (iblk1 (F := Ideal) V c 2 t : Vec Ideal S128 .f32) = (V c main_arg7 : S128.Idx → EReal) := by
  obtain ⟨-, -, -, e, -⟩ := blockIndex1 t
  funext y
  show (V c main_arg7 : S128.Idx → EReal) (((cfg1.win 2).blk t).view.emb y) = _
  congr 1
  funext a; apply Fin.ext
  match a with
  | ⟨0, _⟩ => show win1_2.index t (0 : Fin 1) * 128 + 1 * (y 0).val = (y 0).val; rw [e]; omega

/-- The weight matrix's block at every point is the whole matrix. -/
theorem weight1 (c : Dev nD) (t : Fin cfg1.N) :
    (iblk1 (F := Ideal) V c 3 t : Vec Ideal S128x128 .f32) = (V c main_arg12 : S128x128.Idx → EReal) := by
  obtain ⟨-, -, -, -, e0, e1, -⟩ := blockIndex1 t
  funext y
  show (V c main_arg12 : S128x128.Idx → EReal) (((cfg1.win 3).blk t).view.emb y) = _
  congr 1
  funext a; apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- An index of the output array lies in point t's tile iff each coordinate lies in the tile's range on its axis. -/
theorem mem_tile1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v22).slice (win1_4.rect t)).set ↔ _
  rw [View.set_slice_whole, Rect.mem_set_unit]
  exact Iff.rfl

/-- The ten tiles cover the output array: row r lies in the tile of point r / 5000. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : grid1.N = 10 := N_1
  let t : Fin cfg1.N := ⟨(i 0).val / 5000, by show _ < grid1.N; rw [hN]; omega⟩
  obtain ⟨-, -, -, -, -, -, e0, e1⟩ := blockIndex1 t
  have ht : t.val = (i 0).val / 5000 := rfl
  refine ⟨t, flush1_4 t, ?_⟩
  rw [mem_tile1]
  intro a
  match a with
  | ⟨0, _⟩ => show win1_4.index t (0 : Fin 2) * 5000 ≤ (i 0).val ∧ (i 0).val < win1_4.index t (0 : Fin 2) * 5000 + 5000; rw [e0, ht]; omega
  | ⟨1, _⟩ => show win1_4.index t (1 : Fin 2) * 128 ≤ (i 1).val ∧ (i 1).val < win1_4.index t (1 : Fin 2) * 128 + 128; rw [e1]; omega

/-- One entry of a tile's payload, when the tile x0 holds rows 5000·n … of the array A0 and the other three operands
    are the whole scale row, shift row and weight matrix: it is the entry of the normalised-and-projected array at
    the same row of the whole array and the same column. -/
theorem tileEntry1 (x0 : Vec Ideal S5000x128 .f32) (x1 x2 : Vec Ideal S128 .f32) (x3 : Vec Ideal S128x128 .f32)
    (A0 : S50000x128.Idx → EReal) (A1 A2 : S128.Idx → EReal) (A3 : S128x128.Idx → EReal) (n : ℕ)
    (h0 : ∀ (y : S5000x128.Idx) (i : S50000x128.Idx), (i 0).val = n * 5000 + (y 0).val → (i 1).val = (y 1).val → x0 y = A0 i)
    (h1 : x1 = A1) (h2 : x2 = A2) (h3 : x3 = A3)
    (j : S5000x128.Idx) (i : S50000x128.Idx) (hi0 : (i 0).val = n * 5000 + (j 0).val) (hi1 : (i 1).val = (j 1).val) :
    k1_pay1 (F := Ideal) x0 x1 x2 x3 j
      = NormProject.normProject NormProject.cnt128 NormProject.epsLN A0 A1 A2 A3 i := by
  subst h1 h2 h3
  obtain ⟨p, q, rfl⟩ : ∃ (p : Fin 5000) (q : Fin 128), j = ix2 p q := ⟨j 0, j 1, eq_ix2 j⟩
  obtain ⟨p', q', rfl⟩ : ∃ (p' : Fin 50000) (q' : Fin 128), i = ix2 p' q' := ⟨i 0, i 1, eq_ix2 i⟩
  have hp : p'.val = n * 5000 + p.val := hi0
  obtain rfl : q' = q := Fin.ext hi1
  rw [TileEntry.pay1_apply, NormProject.normProject_apply]
  have hrow : (fun jj : Fin 128 => x0 (ix2 p jj)) = fun jj => A0 (ix2 p' jj) :=
    funext fun jj => h0 (ix2 p jj) (ix2 p' jj) hp rfl
  rw [hrow]

/-- What point t writes back is tile t of the normalised-and-projected array of the four input arrays. -/
theorem flushed1 (c : Dev nD) (t : Fin cfg1.N) :
    (dat1 (F := Ideal) V c).flushed 4 t = ((cfg1.win 4).blk t).view.read (Elt Ideal)
      (NormProject.normProject NormProject.cnt128 NormProject.epsLN (V c main_v21 : S50000x128.Idx → EReal)
        (V c main_arg6 : S128.Idx → EReal) (V c main_arg7 : S128.Idx → EReal) (V c main_arg12 : S128x128.Idx → EReal)) := by
  show (cfg1.win 4).cut (grid1.coords t) ((dat1 V c).after 4 t) = _
  rw [after1_4]
  unfold out1_4
  rw [View.canon_unit_zero zero2]
  simp only [View.ld_unit_zero (S := S5000x128) zero2, View.ld_unit_zero (S := S128) zero1, View.ld_unit_zero (S := S128x128) zero2]
  obtain ⟨-, -, -, -, -, -, e0, e1⟩ := blockIndex1 t
  funext j
  refine tileEntry1 _ _ _ _ _ _ _ _ t.val (fun y i h0 h1 => rowTile1 V c t y i h0 h1) (scale1 V c t) (shift1 V c t)
    (weight1 V c t) j _ ?_ ?_
  · show win1_4.index t (0 : Fin 2) * 5000 + 1 * (j 0).val = t.val * 5000 + (j 0).val
    rw [e0]; omega
  · show win1_4.index t (1 : Fin 2) * 128 + 1 * (j 1).val = (j 1).val
    rw [e1]; omega

/-- The second stage's output array after its region: the normalised-and-projected array of the four arrays the
    region reads, as the region finds them. -/
theorem final1 (c : Dev nD) :
    (dat1 (F := Ideal) V c).arrAt 4 cfg1.N
      = NormProject.normProject NormProject.cnt128 NormProject.epsLN (V c main_v21 : S50000x128.Idx → EReal)
          (V c main_arg6 : S128.Idx → EReal) (V c main_arg7 : S128.Idx → EReal) (V c main_arg12 : S128x128.Idx → EReal) :=
  (dat1 (F := Ideal) V c).arrAt_eq_of_cover 4 _ (fun t _ => flushed1 V c t) cover1

end Cert.KernelIdeal.Blocks

end
-- ==== Proof.Blocks2.lean ====
/-
  From the tiles to the whole array: the third dense stage.

  The stage runs over a grid of ten points. Point t reads rows 5000·t … 5000·t + 4999 of the input array as one tile,
  together with the whole scale row, shift row and weight matrix, and writes one tile of 5000 rows and 128 columns
  back to rows 5000·t … of the output array. Each entry of the tile it writes is the layer norm of the input row
  (count 128) multiplied into a column of the weight matrix, which is the entry of the normalised-and-projected
  whole array at the same row and column. The ten tiles are disjoint row blocks that cover all 50000 rows, so after
  the region the output array is the normalised-and-projected array of the four arrays the region reads. Everything
  is stated for arbitrary contents of those arrays on entry to the region.
-/
import proofs.«146366_j65000035058580_1_alg».proof.Proof.Gen.KernelIdeal.Frame
import proofs.«146366_j65000035058580_1_alg».proof.Proof.NormProject
import proofs.«146366_j65000035058580_1_alg».proof.Proof.TileEntry
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The offsets of a whole rank-2 tile are zero on both axes. -/
private theorem zero2 : (![0, 0] : Fin 2 → Nat) = fun _ => 0 := funext fun a => by fin_cases a <;> rfl
/-- The offset of a whole rank-1 row is zero. -/
private theorem zero1 : (![0] : Fin 1 → Nat) = fun _ => 0 := funext fun a => by fin_cases a <;> rfl

/-- The block indices over the grid of ten row tiles: the input tile and the output tile of point t are both row
    block t (column block 0); the scale row, the shift row and the weight matrix are always their one block 0. -/
theorem blockIndex2 : ∀ t : Fin cfg2.N,
    win2_0.index t (0 : Fin 2) = t.val ∧ win2_0.index t (1 : Fin 2) = 0
    ∧ win2_1.index t (0 : Fin 1) = 0 ∧ win2_2.index t (0 : Fin 1) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The input tile at point t holds rows 5000·t … 5000·t + 4999 of the input array: entry (y₀, y₁) of the tile is
    entry (5000·t + y₀, y₁) of the array. -/
theorem rowTile2 (c : Dev nD) (t : Fin cfg2.N) (y : S5000x128.Idx) (i : S50000x128.Idx)
    (h0 : (i 0).val = t.val * 5000 + (y 0).val) (h1 : (i 1).val = (y 1).val) :
    (iblk2 (F := Ideal) V c 0 t : Vec Ideal S5000x128 .f32) y = (V c main_v39 : S50000x128.Idx → EReal) i := by
  obtain ⟨e0, e1, -⟩ := blockIndex2 t
  show (V c main_v39 : S50000x128.Idx → EReal) (((cfg2.win 0).blk t).view.emb y) = _
  congr 1
  funext a; apply Fin.ext
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- The scale row's block at every point is the whole scale row. -/
theorem scale2 (c : Dev nD) (t : Fin cfg2.N) :
    (iblk2 (F := Ideal) V c 1 t : Vec Ideal S128 .f32) = (V c main_arg8 : S128.Idx → EReal) := by
  obtain ⟨-, -, e, -⟩ := blockIndex2 t
  funext y
  show (V c main_arg8 : S128.Idx → EReal) (((cfg2.win 1).blk t).view.emb y) = _
  congr 1
  funext a; apply Fin.ext
  match a with
  | ⟨0, _⟩ => show win2_1.index t (0 : Fin 1) * 128 + 1 * (y 0).val = (y 0).val; rw [e]; omega

/-- The shift row's block at every point is the whole shift row. -/
theorem shift2 (c : Dev nD) (t : Fin cfg2.N) :
    (iblk2 (F := Ideal) V c 2 t : Vec Ideal S128 .f32) = (V c main_arg9 : S128.Idx → EReal) := by
  obtain ⟨-, -, -, e, -⟩ := blockIndex2 t
  funext y
  show (V c main_arg9 : S128.Idx → EReal) (((cfg2.win 2).blk t).view.emb y) = _
  congr 1
  funext a; apply Fin.ext
  match a with
  | ⟨0, _⟩ => show win2_2.index t (0 : Fin 1) * 128 + 1 * (y 0).val = (y 0).val; rw [e]; omega

/-- The weight matrix's block at every point is the whole matrix. -/
theorem weight2 (c : Dev nD) (t : Fin cfg2.N) :
    (iblk2 (F := Ideal) V c 3 t : Vec Ideal S128x128 .f32) = (V c main_arg14 : S128x128.Idx → EReal) := by
  obtain ⟨-, -, -, -, e0, e1, -⟩ := blockIndex2 t
  funext y
  show (V c main_arg14 : S128x128.Idx → EReal) (((cfg2.win 3).blk t).view.emb y) = _
  congr 1
  funext a; apply Fin.ext
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- An index of the output array lies in point t's tile iff each coordinate lies in the tile's range on its axis. -/
theorem mem_tile2 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v40).slice (win2_4.rect t)).set ↔ _
  rw [View.set_slice_whole, Rect.mem_set_unit]
  exact Iff.rfl

/-- The ten tiles cover the output array: row r lies in the tile of point r / 5000. -/
theorem cover2 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : grid2.N = 10 := N_2
  let t : Fin cfg2.N := ⟨(i 0).val / 5000, by show _ < grid2.N; rw [hN]; omega⟩
  obtain ⟨-, -, -, -, -, -, e0, e1⟩ := blockIndex2 t
  have ht : t.val = (i 0).val / 5000 := rfl
  refine ⟨t, flush2_4 t, ?_⟩
  rw [mem_tile2]
  intro a
  match a with
  | ⟨0, _⟩ => show win2_4.index t (0 : Fin 2) * 5000 ≤ (i 0).val ∧ (i 0).val < win2_4.index t (0 : Fin 2) * 5000 + 5000; rw [e0, ht]; omega
  | ⟨1, _⟩ => show win2_4.index t (1 : Fin 2) * 128 ≤ (i 1).val ∧ (i 1).val < win2_4.index t (1 : Fin 2) * 128 + 128; rw [e1]; omega

/-- One entry of a tile's payload, when the tile x0 holds rows 5000·n … of the array A0 and the other three operands
    are the whole scale row, shift row and weight matrix: it is the entry of the normalised-and-projected array at
    the same row of the whole array and the same column. -/
theorem tileEntry2 (x0 : Vec Ideal S5000x128 .f32) (x1 x2 : Vec Ideal S128 .f32) (x3 : Vec Ideal S128x128 .f32)
    (A0 : S50000x128.Idx → EReal) (A1 A2 : S128.Idx → EReal) (A3 : S128x128.Idx → EReal) (n : ℕ)
    (h0 : ∀ (y : S5000x128.Idx) (i : S50000x128.Idx), (i 0).val = n * 5000 + (y 0).val → (i 1).val = (y 1).val → x0 y = A0 i)
    (h1 : x1 = A1) (h2 : x2 = A2) (h3 : x3 = A3)
    (j : S5000x128.Idx) (i : S50000x128.Idx) (hi0 : (i 0).val = n * 5000 + (j 0).val) (hi1 : (i 1).val = (j 1).val) :
    k2_pay1 (F := Ideal) x0 x1 x2 x3 j
      = NormProject.normProject NormProject.cnt128 NormProject.epsLN A0 A1 A2 A3 i := by
  subst h1 h2 h3
  obtain ⟨p, q, rfl⟩ : ∃ (p : Fin 5000) (q : Fin 128), j = ix2 p q := ⟨j 0, j 1, eq_ix2 j⟩
  obtain ⟨p', q', rfl⟩ : ∃ (p' : Fin 50000) (q' : Fin 128), i = ix2 p' q' := ⟨i 0, i 1, eq_ix2 i⟩
  have hp : p'.val = n * 5000 + p.val := hi0
  obtain rfl : q' = q := Fin.ext hi1
  rw [TileEntry.pay2_apply, NormProject.normProject_apply]
  have hrow : (fun jj : Fin 128 => x0 (ix2 p jj)) = fun jj => A0 (ix2 p' jj) :=
    funext fun jj => h0 (ix2 p jj) (ix2 p' jj) hp rfl
  rw [hrow]

/-- What point t writes back is tile t of the normalised-and-projected array of the four input arrays. -/
theorem flushed2 (c : Dev nD) (t : Fin cfg2.N) :
    (dat2 (F := Ideal) V c).flushed 4 t = ((cfg2.win 4).blk t).view.read (Elt Ideal)
      (NormProject.normProject NormProject.cnt128 NormProject.epsLN (V c main_v39 : S50000x128.Idx → EReal)
        (V c main_arg8 : S128.Idx → EReal) (V c main_arg9 : S128.Idx → EReal) (V c main_arg14 : S128x128.Idx → EReal)) := by
  show (cfg2.win 4).cut (grid2.coords t) ((dat2 V c).after 4 t) = _
  rw [after2_4]
  unfold out2_4
  rw [View.canon_unit_zero zero2]
  simp only [View.ld_unit_zero (S := S5000x128) zero2, View.ld_unit_zero (S := S128) zero1, View.ld_unit_zero (S := S128x128) zero2]
  obtain ⟨-, -, -, -, -, -, e0, e1⟩ := blockIndex2 t
  funext j
  refine tileEntry2 _ _ _ _ _ _ _ _ t.val (fun y i h0 h1 => rowTile2 V c t y i h0 h1) (scale2 V c t) (shift2 V c t)
    (weight2 V c t) j _ ?_ ?_
  · show win2_4.index t (0 : Fin 2) * 5000 + 1 * (j 0).val = t.val * 5000 + (j 0).val
    rw [e0]; omega
  · show win2_4.index t (1 : Fin 2) * 128 + 1 * (j 1).val = (j 1).val
    rw [e1]; omega

/-- The third stage's output array after its region: the normalised-and-projected array of the four arrays the
    region reads, as the region finds them. -/
theorem final2 (c : Dev nD) :
    (dat2 (F := Ideal) V c).arrAt 4 cfg2.N
      = NormProject.normProject NormProject.cnt128 NormProject.epsLN (V c main_v39 : S50000x128.Idx → EReal)
          (V c main_arg8 : S128.Idx → EReal) (V c main_arg9 : S128.Idx → EReal) (V c main_arg14 : S128x128.Idx → EReal) :=
  (dat2 (F := Ideal) V c).arrAt_eq_of_cover 4 _ (fun t _ => flushed2 V c t) cover2

end Cert.KernelIdeal.Blocks

end
-- ==== Proof.RefAggregate.lean ====
/-
  The reference's host stages are the shared ones.

  Between its dense stages the reference applies, operation for operation, the same host operations as the kernel's
  program: the two rows cut out of the edge list, the aggregation over the edges after each dense stage, and the
  read-out at the end. Each of its stages is therefore the shared function of the stage before it; the two
  programs' dimension records differ only in the proofs they carry.
-/
import proofs.«146366_j65000035058580_1_alg».proof.Proof.Gen.ReferenceIdeal.Read
import proofs.«146366_j65000035058580_1_alg».proof.Proof.HostStages

noncomputable section

namespace Cert.ReferenceIdeal.RefAggregate

open Cert.ReferenceIdeal Cert.ReferenceIdeal.Read Cert.KernelIdeal.HostStages Idealize.ShloMosaic

variable (x0 : (⟨S50000x100, .f32⟩ : BufTy).Contents (Elt Ideal))
    (x1 : (⟨S2x800000, .i32⟩ : BufTy).Contents (Elt Ideal))
    (x2 : (⟨S800000, .f32⟩ : BufTy).Contents (Elt Ideal))
    (x3 : (⟨S50000, .i32⟩ : BufTy).Contents (Elt Ideal))
    (x4 : (⟨S100, .f32⟩ : BufTy).Contents (Elt Ideal))
    (x5 : (⟨S100, .f32⟩ : BufTy).Contents (Elt Ideal))
    (x6 : (⟨S128, .f32⟩ : BufTy).Contents (Elt Ideal))
    (x7 : (⟨S128, .f32⟩ : BufTy).Contents (Elt Ideal))
    (x8 : (⟨S128, .f32⟩ : BufTy).Contents (Elt Ideal))
    (x9 : (⟨S128, .f32⟩ : BufTy).Contents (Elt Ideal))
    (x10 : (⟨S100x128, .f32⟩ : BufTy).Contents (Elt Ideal))
    (x11 : (⟨S128, .f32⟩ : BufTy).Contents (Elt Ideal))
    (x12 : (⟨S128x128, .f32⟩ : BufTy).Contents (Elt Ideal))
    (x13 : (⟨S128, .f32⟩ : BufTy).Contents (Elt Ideal))
    (x14 : (⟨S128x128, .f32⟩ : BufTy).Contents (Elt Ideal))
    (x15 : (⟨S128, .f32⟩ : BufTy).Contents (Elt Ideal))
    (x16 : (⟨S128x2, .f32⟩ : BufTy).Contents (Elt Ideal))
    (x17 : (⟨S2, .f32⟩ : BufTy).Contents (Elt Ideal))

/-- The source row of the edge list. -/
theorem src_eq : val_main_v1 (F := Ideal) x1 = srcRow x1 := rfl

/-- The destination row of the edge list. -/
theorem dst_eq : val_main_v3 (F := Ideal) x1 = dstRow x1 := rfl

/-- After the first dense stage: one aggregation. -/
theorem agg_first : val_main_v45 (F := Ideal) x0 x1 x2 x4 x5 x10 x11
    = aggregate (val_main_v28 (F := Ideal) x0 x4 x5 x10) (srcRow x1) (dstRow x1) x2 x11 := rfl

/-- After the second dense stage: one aggregation. -/
theorem agg_second : val_main_v87 (F := Ideal) x0 x1 x2 x4 x5 x6 x7 x10 x11 x12 x13
    = aggregate (val_main_v70 (F := Ideal) x0 x1 x2 x4 x5 x6 x7 x10 x11 x12) (srcRow x1) (dstRow x1) x2 x13 := rfl

/-- After the third dense stage: one aggregation. -/
theorem agg_third : val_main_v129 (F := Ideal) x0 x1 x2 x4 x5 x6 x7 x8 x9 x10 x11 x12 x13 x14 x15
    = aggregate (val_main_v112 (F := Ideal) x0 x1 x2 x4 x5 x6 x7 x8 x9 x10 x11 x12 x13 x14) (srcRow x1) (dstRow x1) x2 x15 := rfl

/-- The read-out of the third layer's features. -/
theorem out_eq : val_main_v144 (F := Ideal) x0 x1 x2 x3 x4 x5 x6 x7 x8 x9 x10 x11 x12 x13 x14 x15 x16 x17
    = readout (val_main_v129 (F := Ideal) x0 x1 x2 x4 x5 x6 x7 x8 x9 x10 x11 x12 x13 x14 x15) x3 x16 x17 := rfl

end Cert.ReferenceIdeal.RefAggregate

end
-- ==== Proof.LibHostRead.lean ====
/-
  A reference program's host operations read at an index, on the extended reals, over literal-shape patterns.

  A reference that normalises over a batch, takes squared distances to a family of centres and projects on a family
  of directions is spelt, on the host, with five kinds of operation besides the elementwise ones:
    • a one-axis sum (`reduce` with an `add` body from a zero word): along the columns or the rows of an `[a, b]`
      array, or along the last axis of an `[a, b, c]` array — at a result index it is the sum of the operand over the
      dropped coordinate;
    • `broadcast_in_dim`: a vector turned into a one-row or one-column matrix and that matrix repeated over the other
      axis, a matrix given a unit middle or leading axis and repeated along it, a literal scalar repeated everywhere —
      at a result index each reads the operand at the coordinates it keeps;
    • a matrix transpose, a rotation of three axes, and two arrays stacked along the leading axis;
    • `dot_general` contracting the columns of an `[B, D]` matrix with the last axis of an `[N, K, D]` array into
      `[B, N, K]` — at `(p, q, j)` the sum over `d` of `l (p, d) * r (q, j, d)`;
    • the host's negation, exponential and reciprocal square root, elementwise.
  Every extent is generic and every shape fact is a hypothesis, so the lemmas apply to any program's records.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

namespace Hmu.Lib

open Idealize.ShloMosaic Idealize.ShloMosaic.ValueIdx

variable {a b c k : ℕ}

/-! ## The host's elementwise operations at an index -/

/-- The host's negation at an index negates the element. -/
theorem hostNegf_apply {s : Shape} {φ : FTy} (x : FVec Ideal s φ) (i : s.Idx) : Host.negf x i = -(x i) := rfl
/-- The host's exponential at an index is the extended exponential of the element. -/
theorem hostExp_apply {s : Shape} {φ : FTy} (x : FVec Ideal s φ) (i : s.Idx) : Host.exp x i = Ideal.exp (x i) := rfl
/-- The host's reciprocal square root at an index is the extended one of the element. -/
theorem hostRsqrt_apply {s : Shape} {φ : FTy} (x : FVec Ideal s φ) (i : s.Idx) : Host.rsqrt x i = Ideal.rsqrt (x i) := rfl

/-! ## The index a one-axis reduction reads: the result index with the dropped coordinate put back -/

/-- Over the columns of an `[a, b]` array: row `r` with the column `j` put back is `(r, j)`. -/
theorem lift_ab_axis1 (h : Shape.Reduces ⟨2, ![a, b]⟩ [1] ⟨1, ![a]⟩) (r : Fin a) (j : Fin b) :
    h.lift (ix1 r) j = ix2 r j := by
  funext d
  apply Fin.ext
  match d with
  | ⟨0, _⟩ => rfl
  | ⟨1, _⟩ => rfl

/-- Over the rows of an `[a, b]` array: column `j` with the row `r` put back is `(r, j)`. -/
theorem lift_ab_axis0 (h : Shape.Reduces ⟨2, ![a, b]⟩ [0] ⟨1, ![b]⟩) (j : Fin b) (r : Fin a) :
    h.lift (ix1 j) r = ix2 r j := by
  funext d
  apply Fin.ext
  match d with
  | ⟨0, _⟩ => rfl
  | ⟨1, _⟩ => rfl

/-- Over the last axis of an `[a, b, c]` array: `(p, q)` with the last coordinate `j` put back is `(p, q, j)`. -/
theorem lift_abc_axis2 (h : Shape.Reduces ⟨3, ![a, b, c]⟩ [2] ⟨2, ![a, b]⟩) (p : Fin a) (q : Fin b) (j : Fin c) :
    h.lift (ix2 p q) j = ix3 p q j := by
  funext d
  apply Fin.ext
  match d with
  | ⟨0, _⟩ => rfl
  | ⟨1, _⟩ => rfl
  | ⟨2, _⟩ => rfl

/-! ## The host's sum along one axis from the zero word -/

/-- The host's sum of an `[a, b]` array along its columns, from the zero word: at row `r` the row's sum. -/
theorem hostReduceAdd_ab_axis1_apply {u : Shape} (x : FVec Ideal ⟨2, ![a, b]⟩ .f32)
    (h' : Shape.ReducesTo ⟨2, ![a, b]⟩ [1] ⟨1, ![a]⟩) (hu : 0 < u.numel) (r : Fin a) :
    Host.reduceAdd x (constant u .f32 0x00000000#32) h' hu (ix1 r) = ∑ j : Fin b, x (ix2 r j) := by
  have h : Shape.Reduces ⟨2, ![a, b]⟩ [1] ⟨1, ![a]⟩ := ⟨h'.1, Nat.one_pos, h'.2⟩
  refine (hostReduceAdd_apply x _ h' hu (ix1 r)).trans ?_
  refine (Ideal.hostReduceAdd_single h' h x _ (ix1 r)).trans ?_
  show Ideal.ofBits .f32 0x00000000#32 + _ = _
  rw [Ideal.ofBits_zero_f32, zero_add]
  exact Finset.sum_congr rfl fun j _ => congrArg x (lift_ab_axis1 h r j)

/-- The host's sum of an `[a, b]` array along its rows, from the zero word: at column `j` the column's sum. -/
theorem hostReduceAdd_ab_axis0_apply {u : Shape} (x : FVec Ideal ⟨2, ![a, b]⟩ .f32)
    (h' : Shape.ReducesTo ⟨2, ![a, b]⟩ [0] ⟨1, ![b]⟩) (hu : 0 < u.numel) (j : Fin b) :
    Host.reduceAdd x (constant u .f32 0x00000000#32) h' hu (ix1 j) = ∑ r : Fin a, x (ix2 r j) := by
  have h : Shape.Reduces ⟨2, ![a, b]⟩ [0] ⟨1, ![b]⟩ := ⟨h'.1, Nat.one_pos, h'.2⟩
  refine (hostReduceAdd_apply x _ h' hu (ix1 j)).trans ?_
  refine (Ideal.hostReduceAdd_single h' h x _ (ix1 j)).trans ?_
  show Ideal.ofBits .f32 0x00000000#32 + _ = _
  rw [Ideal.ofBits_zero_f32, zero_add]
  exact Finset.sum_congr rfl fun r _ => congrArg x (lift_ab_axis0 h j r)

/-- The host's sum of an `[a, b, c]` array along its last axis, from the zero word: at `(p, q)` the sum over the last
    coordinate. -/
theorem hostReduceAdd_abc_axis2_apply {u : Shape} (x : FVec Ideal ⟨3, ![a, b, c]⟩ .f32)
    (h' : Shape.ReducesTo ⟨3, ![a, b, c]⟩ [2] ⟨2, ![a, b]⟩) (hu : 0 < u.numel) (p : Fin a) (q : Fin b) :
    Host.reduceAdd x (constant u .f32 0x00000000#32) h' hu (ix2 p q) = ∑ j : Fin c, x (ix3 p q j) := by
  have h : Shape.Reduces ⟨3, ![a, b, c]⟩ [2] ⟨2, ![a, b]⟩ := ⟨h'.1, Nat.two_pos, h'.2⟩
  refine (hostReduceAdd_apply x _ h' hu (ix2 p q)).trans ?_
  refine (Ideal.hostReduceAdd_single h' h x _ (ix2 p q)).trans ?_
  show Ideal.ofBits .f32 0x00000000#32 + _ = _
  rw [Ideal.ofBits_zero_f32, zero_add]
  exact Finset.sum_congr rfl fun j _ => congrArg x (lift_abc_axis2 h p q j)

/-! ## `broadcast_in_dim` at an index -/

section Broadcast
variable {α : Type}

/-- A literal scalar repeated over any shape reads the literal's value everywhere. -/
theorem bcast_const_apply {T : Shape} (w : BitVec 32) (h : (⟨0, ![]⟩ : Shape).BroadcastsInDim T ![]) (j : T.Idx) :
    broadcastInDim T ![] h (constant (F := Ideal) ⟨0, ![]⟩ .f32 w) j = Ideal.ofBits .f32 w :=
  broadcastInDim_scalar_apply h _ j

/-- A vector `[a]` as the column `[a, 1]`: "(r, u) ↦ r". -/
theorem bcast_a_a1_apply (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ ![0] h x (ix2 r u) = x (ix1 r) := by
  refine broadcastInDim_apply _ h x _ (ix1 r) fun ax => ?_
  match ax with
  | ⟨0, _⟩ =>
    show r.val = if a = 1 then 0 else r.val
    split
    · have := r.isLt; omega
    · rfl

/-- A column `[a, 1]` repeated over `[a, b]`: `(r, j) ↦ (r, 0)`. -/
theorem bcast_a1_ab_apply (x : (⟨2, ![a, 1]⟩ : Shape).Idx → α)
    (h : (⟨2, ![a, 1]⟩ : Shape).BroadcastsInDim ⟨2, ![a, b]⟩ (![0, 1] : Fin 2 → Fin 2)) (r : Fin a) (j : Fin b) :
    broadcastInDim ⟨2, ![a, b]⟩ ![0, 1] h x (ix2 r j) = x (ix2 r (0 : Fin 1)) := by
  refine broadcastInDim_apply _ h x _ (ix2 r (0 : Fin 1)) fun ax => ?_
  match ax with
  | ⟨0, _⟩ =>
    show r.val = if a = 1 then 0 else r.val
    split
    · have := r.isLt; omega
    · rfl
  | ⟨1, _⟩ => rfl

/-- A vector `[b]` as the row `[1, b]`: "(u, j) ↦ j". -/
theorem bcast_b_1b_apply (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A row `[1, b]` repeated over `[a, b]`: `(r, j) ↦ (0, j)`. -/
theorem bcast_1b_ab_apply (x : (⟨2, ![1, b]⟩ : Shape).Idx → α)
    (h : (⟨2, ![1, b]⟩ : Shape).BroadcastsInDim ⟨2, ![a, b]⟩ (![0, 1] : Fin 2 → Fin 2)) (r : Fin a) (j : Fin b) :
    broadcastInDim ⟨2, ![a, b]⟩ ![0, 1] h x (ix2 r j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- A matrix `[a, c]` given a unit middle axis `[a, 1, c]`: `(p, u, q) ↦ (p, q)`. -/
theorem bcast_ac_a1c_apply (x : (⟨2, ![a, c]⟩ : Shape).Idx → α)
    (h : (⟨2, ![a, c]⟩ : Shape).BroadcastsInDim ⟨3, ![a, 1, c]⟩ (![0, 2] : Fin 2 → Fin 3)) (p : Fin a) (u : Fin 1)
    (q : Fin c) : broadcastInDim ⟨3, ![a, 1, c]⟩ ![0, 2] h x (ix3 p u q) = x (ix2 p q) := by
  refine broadcastInDim_apply _ h x _ (ix2 p q) fun ax => ?_
  match ax with
  | ⟨0, _⟩ =>
    show p.val = if a = 1 then 0 else p.val
    split
    · have := p.isLt; omega
    · rfl
  | ⟨1, _⟩ =>
    show q.val = if c = 1 then 0 else q.val
    split
    · have := q.isLt; omega
    · rfl

/-- An `[a, 1, c]` array repeated along its middle axis over `[a, k, c]`: `(p, j, q) ↦ (p, 0, q)`. -/
theorem bcast_a1c_akc_apply (x : (⟨3, ![a, 1, c]⟩ : Shape).Idx → α)
    (h : (⟨3, ![a, 1, c]⟩ : Shape).BroadcastsInDim ⟨3, ![a, k, c]⟩ (![0, 1, 2] : Fin 3 → Fin 3)) (p : Fin a) (j : Fin k)
    (q : Fin c) : broadcastInDim ⟨3, ![a, k, c]⟩ ![0, 1, 2] h x (ix3 p j q) = x (ix3 p (0 : Fin 1) q) := by
  refine broadcastInDim_apply _ h x _ (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A matrix `[b, k]` given a unit leading axis `[1, b, k]`: `(u, q, j) ↦ (q, j)`. -/
theorem bcast_bk_1bk_apply (x : (⟨2, ![b, k]⟩ : Shape).Idx → α)
    (h : (⟨2, ![b, k]⟩ : Shape).BroadcastsInDim ⟨3, ![1, b, k]⟩ (![1, 2] : Fin 2 → Fin 3)) (u : Fin 1) (q : Fin b)
    (j : Fin k) : broadcastInDim ⟨3, ![1, b, k]⟩ ![1, 2] h x (ix3 u q j) = x (ix2 q j) := by
  refine broadcastInDim_apply _ h x _ (ix2 q j) fun ax => ?_
  match ax with
  | ⟨0, _⟩ =>
    show q.val = if b = 1 then 0 else q.val
    split
    · have := q.isLt; omega
    · rfl
  | ⟨1, _⟩ =>
    show j.val = if k = 1 then 0 else j.val
    split
    · have := j.isLt; omega
    · rfl

/-- A `[1, b, k]` array repeated along its leading axis over `[a, b, k]`: `(p, q, j) ↦ (0, q, j)`. -/
theorem bcast_1bk_abk_apply (x : (⟨3, ![1, b, k]⟩ : Shape).Idx → α)
    (h : (⟨3, ![1, b, k]⟩ : Shape).BroadcastsInDim ⟨3, ![a, b, k]⟩ (![0, 1, 2] : Fin 3 → Fin 3)) (p : Fin a) (q : Fin b)
    (j : Fin k) : broadcastInDim ⟨3, ![a, b, k]⟩ ![0, 1, 2] h x (ix3 p q j) = x (ix3 (0 : Fin 1) q j) := by
  refine broadcastInDim_apply _ h x _ (ix3 (0 : Fin 1) q j) fun ax => ?_
  match ax with
  | ⟨0, _⟩ => rfl
  | ⟨1, _⟩ =>
    show q.val = if b = 1 then 0 else q.val
    split
    · have := q.isLt; omega
    · rfl
  | ⟨2, _⟩ =>
    show j.val = if k = 1 then 0 else j.val
    split
    · have := j.isLt; omega
    · rfl

/-- A per-row vector `[a]` spread over `[a, b]` through the column `[a, 1]`: "(r, j) ↦ r". -/
theorem bcastRows_apply (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![a, 1]⟩ ![0] h1 x) (ix2 r j) = x (ix1 r) :=
  (bcast_a1_ab_apply _ h2 r j).trans (bcast_a_a1_apply x h1 r 0)

/-- A per-column vector `[b]` spread over `[a, b]` through the row `[1, b]`: "(r, j) ↦ j". -/
theorem bcastCols_apply (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![1, b]⟩ ![1] h1 x) (ix2 r j) = x (ix1 j) :=
  (bcast_1b_ab_apply _ h2 r j).trans (bcast_b_1b_apply x h1 0 j)

/-- A matrix `[a, c]` repeated `k` times along a new middle axis, through `[a, 1, c]`: `(p, j, q) ↦ (p, q)`. -/
theorem bcastMiddle_apply (x : (⟨2, ![a, c]⟩ : Shape).Idx → α)
    (h1 : (⟨2, ![a, c]⟩ : Shape).BroadcastsInDim ⟨3, ![a, 1, c]⟩ (![0, 2] : Fin 2 → Fin 3))
    (h2 : (⟨3, ![a, 1, c]⟩ : Shape).BroadcastsInDim ⟨3, ![a, k, c]⟩ (![0, 1, 2] : Fin 3 → Fin 3)) (p : Fin a) (j : Fin k)
    (q : Fin c) :
    broadcastInDim ⟨3, ![a, k, c]⟩ ![0, 1, 2] h2 (broadcastInDim ⟨3, ![a, 1, c]⟩ ![0, 2] h1 x) (ix3 p j q) = x (ix2 p q) :=
  (bcast_a1c_akc_apply _ h2 p j q).trans (bcast_ac_a1c_apply x h1 p 0 q)

/-- A matrix `[b, k]` repeated `a` times along a new leading axis, through `[1, b, k]`: `(p, q, j) ↦ (q, j)`. -/
theorem bcastLeading_apply (x : (⟨2, ![b, k]⟩ : Shape).Idx → α)
    (h1 : (⟨2, ![b, k]⟩ : Shape).BroadcastsInDim ⟨3, ![1, b, k]⟩ (![1, 2] : Fin 2 → Fin 3))
    (h2 : (⟨3, ![1, b, k]⟩ : Shape).BroadcastsInDim ⟨3, ![a, b, k]⟩ (![0, 1, 2] : Fin 3 → Fin 3)) (p : Fin a) (q : Fin b)
    (j : Fin k) :
    broadcastInDim ⟨3, ![a, b, k]⟩ ![0, 1, 2] h2 (broadcastInDim ⟨3, ![1, b, k]⟩ ![1, 2] h1 x) (ix3 p q j) = x (ix2 q j) :=
  (bcast_1bk_abk_apply _ h2 p q j).trans (bcast_bk_1bk_apply x h1 0 q j)

end Broadcast

/-! ## A transpose that rotates the axes, and two pieces stacked along the leading axis -/

section Layout
variable {α : Type} {m mt : ℕ}

/-- An `[a, b, c]` array with its axes rotated to `[b, c, a]` (permutation `[1, 2, 0]`) reads, at `(j, q, p)`, the
    operand at `(p, j, q)`. -/
theorem transpose_ix3_120_apply (x : (⟨3, ![a, b, c]⟩ : Shape).Idx → α)
    (h : (⟨3, ![a, b, c]⟩ : Shape).Transposes [1, 2, 0] ⟨3, ![b, c, a]⟩) (j : Fin b) (q : Fin c) (p : Fin a) :
    transpose ⟨3, ![b, c, a]⟩ [1, 2, 0] x h (ix3 j q p) = x (ix3 p j q) :=
  transpose_apply _ x h _ _ fun e => match e with | ⟨0, _⟩ => rfl | ⟨1, _⟩ => rfl | ⟨2, _⟩ => rfl

/-- One slab `[1, a, b]` stacked on `m` slabs `[m, a, b]` along the leading axis: slab `0` of the stack is the
    first piece. -/
theorem concat_1ab_mab_head_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (hs : s.val = 0)
    (p : Fin a) (q : Fin b) :
    concatenate ⟨3, ![mt, a, b]⟩ 0 [⟨⟨3, ![1, a, b]⟩, x₁⟩, ⟨⟨3, ![m, a, b]⟩, x₂⟩] h (ix3 s p q) = x₁ (ix3 (0 : Fin 1) p q) :=
  concatenate_pair_apply_left (0 : Fin 3) x₁ x₂ h (ix3 s p q) rfl (ix3 (0 : Fin 1) p q) fun e =>
    match e with | ⟨0, _⟩ => hs.symm | ⟨1, _⟩ => rfl | ⟨2, _⟩ => rfl

/-- … and slab `j + 1` of the stack is slab `j` of the second piece. -/
theorem concat_1ab_mab_tail_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (j : Fin m)
    (hs : s.val = j.val + 1) (p : Fin a) (q : Fin b) :
    concatenate ⟨3, ![mt, a, b]⟩ 0 [⟨⟨3, ![1, a, b]⟩, x₁⟩, ⟨⟨3, ![m, a, b]⟩, x₂⟩] h (ix3 s p q) = x₂ (ix3 j p q) :=
  concatenate_pair_apply_right (0 : Fin 3) x₁ x₂ h (ix3 s p q) rfl rfl (ix3 j p q)
    (fun e he => match e, he with | ⟨0, _⟩, he => absurd rfl he | ⟨1, _⟩, _ => rfl | ⟨2, _⟩, _ => rfl)
    hs.symm

end Layout

/-! ## A matrix against a stack of direction families: `[B, D] × [N, K, D] → [B, N, K]` -/

section Dot
variable {B D N K : ℕ}

/-- The dimension numbers "contract the left operand's columns with the right operand's last axis, no batch axis",
    over any extents; the shape conditions are the caller's fact. -/
def dotBDxNKD (B D N K : ℕ)
    (wf : DotDims.WF ⟨2, ![B, D]⟩ ⟨3, ![N, K, D]⟩ ⟨3, ![B, N, K]⟩ [1] [2] [0] [0, 1] [] []) :
    DotDims ⟨2, ![B, D]⟩ ⟨3, ![N, K, D]⟩ ⟨3, ![B, N, K]⟩ where
  lhsContracting := [1]
  rhsContracting := [2]
  lhsNonContracting := [0]
  rhsNonContracting := [0, 1]
  lhsBatch := []
  rhsBatch := []
  wf := wf

variable (wf : DotDims.WF ⟨2, ![B, D]⟩ ⟨3, ![N, K, D]⟩ ⟨3, ![B, N, K]⟩ [1] [2] [0] [0, 1] [] [])

/-- The left operand's index at output entry `(p, q, j)` and contracted coordinate `d` is `(p, d)`. -/
theorem dotBDxNKD_lhsIdx (p : Fin B) (q : Fin N) (j : Fin K) (d : Fin D) :
    (dotBDxNKD B D N K wf).lhsIdx (ix3 p q j) ((contrEquiv1 (dotBDxNKD B D N K wf) D rfl rfl).symm d) = ix2 p d := by
  have hk := contrEquiv1_symm_val (dotBDxNKD B D N K wf) D rfl rfl d
  funext ax
  apply Fin.ext
  match ax with
  | ⟨0, _⟩ => rfl
  | ⟨1, _⟩ => exact ((dotBDxNKD B D N K wf).lhsIdx_val_of_single (cl := 1) rfl _ _).trans hk

/-- The right operand's index at output entry `(p, q, j)` and contracted coordinate `d` is `(q, j, d)`. -/
theorem dotBDxNKD_rhsIdx (p : Fin B) (q : Fin N) (j : Fin K) (d : Fin D) :
    (dotBDxNKD B D N K wf).rhsIdx (ix3 p q j) ((contrEquiv1 (dotBDxNKD B D N K wf) D rfl rfl).symm d) = ix3 q j d := by
  have hk := contrEquiv1_symm_val (dotBDxNKD B D N K wf) D rfl rfl d
  funext ax
  apply Fin.ext
  match ax with
  | ⟨0, _⟩ => rfl
  | ⟨1, _⟩ => rfl
  | ⟨2, _⟩ => exact ((dotBDxNKD B D N K wf).rhsIdx_val_of_single (cr := 2) rfl _ _).trans hk

/-- The host's `dot_general` with these dimension numbers, read at `(p, q, j)`: the sum over the contracted coordinate
    of the left operand's row `p` against the right operand's fibre `(q, j)`. -/
theorem dotBDxNKD_apply {φ₁ φ₂ : FTy} (l : FVec Ideal ⟨2, ![B, D]⟩ φ₁) (r : FVec Ideal ⟨3, ![N, K, D]⟩ φ₂)
    (prec : Option ContractPrecision) (sched : HostSchedule) (p : Fin B) (q : Fin N) (j : Fin K) :
    FloatOps.dotGeneral (dotBDxNKD B D N K wf) prec sched l r (ix3 p q j) = ∑ d : Fin D, l (ix2 p d) * r (ix3 q j d) := by
  refine (Ideal.dotGeneral_apply (dotBDxNKD B D N K wf) prec sched l r (ix3 p q j)).trans ?_
  rw [← Equiv.sum_comp (contrEquiv1 (dotBDxNKD B D N K wf) D rfl rfl).symm]
  refine Finset.sum_congr rfl fun d _ => ?_
  rw [dotBDxNKD_lhsIdx, dotBDxNKD_rhsIdx]

end Dot

end Hmu.Lib
-- ==== Proof.LibHostSlab.lean ====
/-
  Two host forms read at an entry.

  The reference slices one `[1, a, b]` slab out of a weight stack `[M, a, b]`, drops the unit axis and transposes the
  matrix: at `(j, i)` the result is the stack at `(k, i, j)`. And it multiplies matrices by the host's
  `dot_general` contracting the left operand's columns with the right operand's rows: on the extended reals, at
  `(p, q)`, the sum over the contracted axis, whatever record the program prints for those dimension numbers.
-/
import proofs.«146366_j65000035058580_1_alg».proof.Proof.LibDotRecord
import Idealize.ShloMosaic.Lib.ValueLayout

namespace Bilinear.Host

open Idealize.ShloMosaic Idealize.ShloMosaic.ValueIdx

/-- The host's plain matrix product at `(p, q)`: the sum over the contracted axis. -/
theorem dot_apply {M K N : ℕ} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![M, K]⟩ φ₁) (r : FVec Ideal ⟨2, ![K, N]⟩ φ₂) (prec : Option ContractPrecision)
    (p : Fin M) (q : Fin N) :
    Host.dotGeneral d prec l r (ix2 p q) = ∑ k : Fin K, l (ix2 p k) * r (ix2 k q) := by
  have e := DotRecord.eq_plain d h1 h2 h3 h4 h5 h6
  subst e
  exact Gcn.Lib.plain_dotGeneral_apply l r prec .single p q

/-- Slab `k` of a stack, sliced out, read as a matrix and transposed. -/
theorem slabT_apply {α : Type} {M a b : ℕ} (A : (⟨3, ![M, a, b]⟩ : Shape).Idx → α) (o : ℕ) (k : Fin M) (hk : k.val = o)
    (hs : (⟨3, ![M, a, b]⟩ : Shape).Slices ![o, 0, 0] ⟨3, ![1, a, b]⟩)
    (hc : (⟨3, ![1, a, b]⟩ : Shape).ShapeCasts ⟨2, ![a, b]⟩)
    (ht : (⟨2, ![a, b]⟩ : Shape).Transposes [1, 0] ⟨2, ![b, a]⟩) (j : Fin b) (i : Fin a) :
    transpose ⟨2, ![b, a]⟩ [1, 0] (shapeCast ⟨2, ![a, b]⟩ (extractStridedSlice ⟨3, ![1, a, b]⟩ ![o, 0, 0] A hs) hc) ht (ix2 j i)
      = A (ix3 k i j) :=
  (transpose_ix2_apply _ ht j i).trans <| (shapeCast_1ab_ab_apply _ hc i j).trans <|
    extractStridedSlice_apply ![o, 0, 0] A hs (ix3 (0 : Fin 1) i j) (ix3 k i j) (fun ax => by
      match ax with
      | ⟨0, _⟩ => show k.val = o + 0; omega
      | ⟨1, _⟩ => exact (Nat.zero_add _).symm
      | ⟨2, _⟩ => exact (Nat.zero_add _).symm)

end Bilinear.Host
-- ==== Proof.RefStages.lean ====
/-
  The reference's three normalise-and-project stages are the shared specification.

  On the host, one dense stage of the network is spelt operation by operation: the row sums of the [a, d] input
  (a one-axis sum from the zero word) turned into a column [a, 1] and divided by the count word repeated over the
  column; that column of means repeated over [a, d] and subtracted; the centred array squared, its row sums again
  turned into a column and divided by the count; the epsilon word added, the reciprocal square root taken, the
  column repeated over [a, d]; the centred array times that, times the scale vector [d] repeated down the rows
  (through the row [1, d]), plus the shift vector repeated the same way; and the result multiplied by the [d, n]
  weight matrix, contracting its columns with the weight's rows.

  Read at an entry (p, c), each column-valued step reads row p and each row-valued step reads column c, so the
  normalised array at (p, c) is the layer norm of row p at c, and the product at (p, q) is the sum over k of the
  normalised row p at k times the weight at (k, q): the specification's entry. This is proved once for every
  extent, count word and epsilon word, with the shape facts as hypotheses, and then read off three times: for the
  first stage (input the program's argument, count 100), and for the second and third (input the previous
  layer's output, kept as an opaque array; count 128).
-/
import proofs.«146366_j65000035058580_1_alg».proof.Proof.Gen.ReferenceIdeal.Read
import proofs.«146366_j65000035058580_1_alg».proof.Proof.NormProject
import proofs.«146366_j65000035058580_1_alg».proof.Proof.LibHostRead
import proofs.«146366_j65000035058580_1_alg».proof.Proof.LibHostSlab

noncomputable section

namespace Cert.ReferenceIdeal.RefStages

open Idealize.ShloMosaic Idealize.ShloMosaic.ValueIdx Cert.ReferenceIdeal.Gen

/-! ## The host's chain over generic extents -/

section Generic
variable {a d n : ℕ}

/-- The column of row means: the rows' sums from the zero word, as a column, divided by the count word. -/
def hostMeanCol (x : FVec Ideal ⟨2, ![a, d]⟩ .f32) (wc : BitVec 32)
    (hR : Shape.ReducesTo ⟨2, ![a, d]⟩ [1] ⟨1, ![a]⟩) (hu : 0 < (⟨0, ![]⟩ : Shape).numel)
    (hA : (⟨1, ![a]⟩ : Shape).BroadcastsInDim ⟨2, ![a, 1]⟩ (![0] : Fin 1 → Fin 2))
    (hS : (⟨0, ![]⟩ : Shape).BroadcastsInDim ⟨2, ![a, 1]⟩ ![]) : FVec Ideal ⟨2, ![a, 1]⟩ .f32 :=
  Host.divf (F := Ideal)
    (broadcastInDim ⟨2, ![a, 1]⟩ ![0] hA
      (Host.reduceAdd (F := Ideal) x (constant (F := Ideal) ⟨0, ![]⟩ .f32 0x00000000#32) hR hu))
    (broadcastInDim ⟨2, ![a, 1]⟩ ![] hS (constant (F := Ideal) ⟨0, ![]⟩ .f32 wc))

/-- Row `p` of the column of means is the mean of row `p`. -/
theorem hostMeanCol_apply (x : FVec Ideal ⟨2, ![a, d]⟩ .f32) (wc : BitVec 32)
    (hR : Shape.ReducesTo ⟨2, ![a, d]⟩ [1] ⟨1, ![a]⟩) (hu : 0 < (⟨0, ![]⟩ : Shape).numel)
    (hA : (⟨1, ![a]⟩ : Shape).BroadcastsInDim ⟨2, ![a, 1]⟩ (![0] : Fin 1 → Fin 2))
    (hS : (⟨0, ![]⟩ : Shape).BroadcastsInDim ⟨2, ![a, 1]⟩ ![]) (p : Fin a) (u : Fin 1) :
    hostMeanCol x wc hR hu hA hS (ix2 p u)
      = LayerNorm.rowMean (Ideal.ofBits .f32 wc) (fun k => x (ix2 p k)) := by
  unfold hostMeanCol LayerNorm.rowMean
  rw [hostDivf_apply, Hmu.Lib.bcast_a_a1_apply, Hmu.Lib.hostReduceAdd_ab_axis1_apply, Hmu.Lib.bcast_const_apply]

/-- The array minus its row means repeated over the columns. -/
def hostCentred (x : FVec Ideal ⟨2, ![a, d]⟩ .f32) (wc : BitVec 32)
    (hR : Shape.ReducesTo ⟨2, ![a, d]⟩ [1] ⟨1, ![a]⟩) (hu : 0 < (⟨0, ![]⟩ : Shape).numel)
    (hA : (⟨1, ![a]⟩ : Shape).BroadcastsInDim ⟨2, ![a, 1]⟩ (![0] : Fin 1 → Fin 2))
    (hS : (⟨0, ![]⟩ : Shape).BroadcastsInDim ⟨2, ![a, 1]⟩ ![])
    (hB : (⟨2, ![a, 1]⟩ : Shape).BroadcastsInDim ⟨2, ![a, d]⟩ (![0, 1] : Fin 2 → Fin 2)) :
    FVec Ideal ⟨2, ![a, d]⟩ .f32 :=
  subf x (broadcastInDim ⟨2, ![a, d]⟩ ![0, 1] hB (hostMeanCol x wc hR hu hA hS))

/-- Entry (p, c) of the centred array: the entry minus the mean of row `p`. -/
theorem hostCentred_apply (x : FVec Ideal ⟨2, ![a, d]⟩ .f32) (wc : BitVec 32)
    (hR : Shape.ReducesTo ⟨2, ![a, d]⟩ [1] ⟨1, ![a]⟩) (hu : 0 < (⟨0, ![]⟩ : Shape).numel)
    (hA : (⟨1, ![a]⟩ : Shape).BroadcastsInDim ⟨2, ![a, 1]⟩ (![0] : Fin 1 → Fin 2))
    (hS : (⟨0, ![]⟩ : Shape).BroadcastsInDim ⟨2, ![a, 1]⟩ ![])
    (hB : (⟨2, ![a, 1]⟩ : Shape).BroadcastsInDim ⟨2, ![a, d]⟩ (![0, 1] : Fin 2 → Fin 2)) (p : Fin a) (c : Fin d) :
    hostCentred x wc hR hu hA hS hB (ix2 p c)
      = x (ix2 p c) - LayerNorm.rowMean (Ideal.ofBits .f32 wc) (fun k => x (ix2 p k)) := by
  unfold hostCentred
  rw [subf_apply, Hmu.Lib.bcast_a1_ab_apply, hostMeanCol_apply]

/-- The layer-normalised array with scale vector `g` and shift vector `b`, as the host spells it. -/
def hostNormed (x : FVec Ideal ⟨2, ![a, d]⟩ .f32) (g b : FVec Ideal ⟨1, ![d]⟩ .f32) (wc we : BitVec 32)
    (hR : Shape.ReducesTo ⟨2, ![a, d]⟩ [1] ⟨1, ![a]⟩) (hu : 0 < (⟨0, ![]⟩ : Shape).numel)
    (hA : (⟨1, ![a]⟩ : Shape).BroadcastsInDim ⟨2, ![a, 1]⟩ (![0] : Fin 1 → Fin 2))
    (hS : (⟨0, ![]⟩ : Shape).BroadcastsInDim ⟨2, ![a, 1]⟩ ![])
    (hB : (⟨2, ![a, 1]⟩ : Shape).BroadcastsInDim ⟨2, ![a, d]⟩ (![0, 1] : Fin 2 → Fin 2))
    (hG1 : (⟨1, ![d]⟩ : Shape).BroadcastsInDim ⟨2, ![1, d]⟩ (![1] : Fin 1 → Fin 2))
    (hG2 : (⟨2, ![1, d]⟩ : Shape).BroadcastsInDim ⟨2, ![a, d]⟩ (![0, 1] : Fin 2 → Fin 2)) :
    FVec Ideal ⟨2, ![a, d]⟩ .f32 :=
  addf (mulf (mulf (hostCentred x wc hR hu hA hS hB)
      (broadcastInDim ⟨2, ![a, d]⟩ ![0, 1] hB (Host.rsqrt (F := Ideal) (addf
        (hostMeanCol (mulf (hostCentred x wc hR hu hA hS hB) (hostCentred x wc hR hu hA hS hB)) wc hR hu hA hS)
        (broadcastInDim ⟨2, ![a, 1]⟩ ![] hS (constant (F := Ideal) ⟨0, ![]⟩ .f32 we))))))
      (broadcastInDim ⟨2, ![a, d]⟩ ![0, 1] hG2 (broadcastInDim ⟨2, ![1, d]⟩ ![1] hG1 g)))
    (broadcastInDim ⟨2, ![a, d]⟩ ![0, 1] hG2 (broadcastInDim ⟨2, ![1, d]⟩ ![1] hG1 b))

/-- Entry (p, c) of the normalised array is the layer norm of row `p` at column `c`. -/
theorem hostNormed_apply (x : FVec Ideal ⟨2, ![a, d]⟩ .f32) (g b : FVec Ideal ⟨1, ![d]⟩ .f32) (wc we : BitVec 32)
    (hR : Shape.ReducesTo ⟨2, ![a, d]⟩ [1] ⟨1, ![a]⟩) (hu : 0 < (⟨0, ![]⟩ : Shape).numel)
    (hA : (⟨1, ![a]⟩ : Shape).BroadcastsInDim ⟨2, ![a, 1]⟩ (![0] : Fin 1 → Fin 2))
    (hS : (⟨0, ![]⟩ : Shape).BroadcastsInDim ⟨2, ![a, 1]⟩ ![])
    (hB : (⟨2, ![a, 1]⟩ : Shape).BroadcastsInDim ⟨2, ![a, d]⟩ (![0, 1] : Fin 2 → Fin 2))
    (hG1 : (⟨1, ![d]⟩ : Shape).BroadcastsInDim ⟨2, ![1, d]⟩ (![1] : Fin 1 → Fin 2))
    (hG2 : (⟨2, ![1, d]⟩ : Shape).BroadcastsInDim ⟨2, ![a, d]⟩ (![0, 1] : Fin 2 → Fin 2)) (p : Fin a) (c : Fin d) :
    hostNormed x g b wc we hR hu hA hS hB hG1 hG2 (ix2 p c)
      = LayerNorm.lnorm (Ideal.ofBits .f32 wc) (Ideal.ofBits .f32 we) (fun k => x (ix2 p k))
          (fun k => g (ix1 k)) (fun k => b (ix1 k)) c := by
  unfold hostNormed LayerNorm.lnorm
  rw [addf_apply, mulf_apply, mulf_apply, Hmu.Lib.bcast_a1_ab_apply, Hmu.Lib.bcastCols_apply,
    Hmu.Lib.bcastCols_apply, Hmu.Lib.hostRsqrt_apply, addf_apply, Hmu.Lib.bcast_const_apply, hostCentred_apply,
    hostMeanCol_apply]
  simp only [mulf_apply, hostCentred_apply]

/-- The host's product of the normalised array with a weight matrix is the specification's stage. -/
theorem hostNormProject_eq (x : FVec Ideal ⟨2, ![a, d]⟩ .f32) (g b : FVec Ideal ⟨1, ![d]⟩ .f32)
    (w : FVec Ideal ⟨2, ![d, n]⟩ .f32) (wc we : BitVec 32)
    (hR : Shape.ReducesTo ⟨2, ![a, d]⟩ [1] ⟨1, ![a]⟩) (hu : 0 < (⟨0, ![]⟩ : Shape).numel)
    (hA : (⟨1, ![a]⟩ : Shape).BroadcastsInDim ⟨2, ![a, 1]⟩ (![0] : Fin 1 → Fin 2))
    (hS : (⟨0, ![]⟩ : Shape).BroadcastsInDim ⟨2, ![a, 1]⟩ ![])
    (hB : (⟨2, ![a, 1]⟩ : Shape).BroadcastsInDim ⟨2, ![a, d]⟩ (![0, 1] : Fin 2 → Fin 2))
    (hG1 : (⟨1, ![d]⟩ : Shape).BroadcastsInDim ⟨2, ![1, d]⟩ (![1] : Fin 1 → Fin 2))
    (hG2 : (⟨2, ![1, d]⟩ : Shape).BroadcastsInDim ⟨2, ![a, d]⟩ (![0, 1] : Fin 2 → Fin 2))
    (dd : DotDims ⟨2, ![a, d]⟩ ⟨2, ![d, n]⟩ ⟨2, ![a, n]⟩)
    (h1 : dd.lhsContracting = [1]) (h2 : dd.rhsContracting = [0]) (h3 : dd.lhsNonContracting = [0])
    (h4 : dd.rhsNonContracting = [1]) (h5 : dd.lhsBatch = []) (h6 : dd.rhsBatch = []) :
    Host.dotGeneral (F := Ideal) dd none (hostNormed x g b wc we hR hu hA hS hB hG1 hG2) w
      = NormProject.normProject (Ideal.ofBits .f32 wc) (Ideal.ofBits .f32 we) x g b w := by
  funext i
  obtain ⟨p, q, rfl⟩ : ∃ (p : Fin a) (q : Fin n), i = ix2 p q := ⟨i 0, i 1, eq_ix2 i⟩
  rw [NormProject.normProject_apply, Bilinear.Host.dot_apply dd h1 h2 h3 h4 h5 h6]
  exact Finset.sum_congr rfl fun k _ => by rw [hostNormed_apply]

end Generic

/-! ## The three stages -/

/-- The first stage: the argument array normalised with count 100 and multiplied by the first weight. -/
theorem stage0 (x0 : (⟨S50000x100, .f32⟩ : BufTy).Contents (Elt Ideal)) (x4 x5 : (⟨S100, .f32⟩ : BufTy).Contents (Elt Ideal))
    (x10 : (⟨S100x128, .f32⟩ : BufTy).Contents (Elt Ideal)) :
    Read.val_main_v28 (F := Ideal) x0 x4 x5 x10
      = NormProject.normProject NormProject.cnt100 NormProject.epsLN x0 x4 x5 x10 :=
  hostNormProject_eq x0 x4 x5 x10 0x42C80000#32 0x3727C5AC#32 reducesTo_S50000x100_S50000_d1 h_S_
    bcast_S50000_S50000x1_0 bcast_S_S50000x1 bcast_S50000x1_S50000x100_0_1 bcast_S100_S1x100_1
    bcast_S1x100_S50000x100_0_1 dot_S50000x100_S100x128_S50000x128_1_0_0_1_n_n rfl rfl rfl rfl rfl rfl

/-- The second stage: the first layer's output (kept as an array) normalised with count 128 and multiplied by
    the second weight. -/
theorem stage1 (x0 : (⟨S50000x100, .f32⟩ : BufTy).Contents (Elt Ideal)) (x1 : (⟨S2x800000, .i32⟩ : BufTy).Contents (Elt Ideal))
    (x2 : (⟨S800000, .f32⟩ : BufTy).Contents (Elt Ideal)) (x4 x5 : (⟨S100, .f32⟩ : BufTy).Contents (Elt Ideal))
    (x6 x7 : (⟨S128, .f32⟩ : BufTy).Contents (Elt Ideal)) (x10 : (⟨S100x128, .f32⟩ : BufTy).Contents (Elt Ideal))
    (x11 : (⟨S128, .f32⟩ : BufTy).Contents (Elt Ideal)) (x12 : (⟨S128x128, .f32⟩ : BufTy).Contents (Elt Ideal)) :
    Read.val_main_v70 (F := Ideal) x0 x1 x2 x4 x5 x6 x7 x10 x11 x12
      = NormProject.normProject NormProject.cnt128 NormProject.epsLN
          (Read.val_main_v45 (F := Ideal) x0 x1 x2 x4 x5 x10 x11) x6 x7 x12 :=
  hostNormProject_eq (Read.val_main_v45 (F := Ideal) x0 x1 x2 x4 x5 x10 x11) x6 x7 x12 0x43000000#32 0x3727C5AC#32
    reducesTo_S50000x128_S50000_d1 h_S_ bcast_S50000_S50000x1_0 bcast_S_S50000x1 bcast_S50000x1_S50000x128_0_1
    bcast_S128_S1x128_1 bcast_S1x128_S50000x128_0_1 dot_S50000x128_S128x128_S50000x128_1_0_0_1_n_n
    rfl rfl rfl rfl rfl rfl

/-- The third stage: the second layer's output (kept as an array) normalised with count 128 and multiplied by
    the third weight. -/
theorem stage2 (x0 : (⟨S50000x100, .f32⟩ : BufTy).Contents (Elt Ideal)) (x1 : (⟨S2x800000, .i32⟩ : BufTy).Contents (Elt Ideal))
    (x2 : (⟨S800000, .f32⟩ : BufTy).Contents (Elt Ideal)) (x4 x5 : (⟨S100, .f32⟩ : BufTy).Contents (Elt Ideal))
    (x6 x7 x8 x9 : (⟨S128, .f32⟩ : BufTy).Contents (Elt Ideal)) (x10 : (⟨S100x128, .f32⟩ : BufTy).Contents (Elt Ideal))
    (x11 : (⟨S128, .f32⟩ : BufTy).Contents (Elt Ideal)) (x12 : (⟨S128x128, .f32⟩ : BufTy).Contents (Elt Ideal))
    (x13 : (⟨S128, .f32⟩ : BufTy).Contents (Elt Ideal)) (x14 : (⟨S128x128, .f32⟩ : BufTy).Contents (Elt Ideal)) :
    Read.val_main_v112 (F := Ideal) x0 x1 x2 x4 x5 x6 x7 x8 x9 x10 x11 x12 x13 x14
      = NormProject.normProject NormProject.cnt128 NormProject.epsLN
          (Read.val_main_v87 (F := Ideal) x0 x1 x2 x4 x5 x6 x7 x10 x11 x12 x13) x8 x9 x14 :=
  hostNormProject_eq (Read.val_main_v87 (F := Ideal) x0 x1 x2 x4 x5 x6 x7 x10 x11 x12 x13) x8 x9 x14
    0x43000000#32 0x3727C5AC#32
    reducesTo_S50000x128_S50000_d1 h_S_ bcast_S50000_S50000x1_0 bcast_S_S50000x1 bcast_S50000x1_S50000x128_0_1
    bcast_S128_S1x128_1 bcast_S1x128_S50000x128_0_1 dot_S50000x128_S128x128_S50000x128_1_0_0_1_n_n
    rfl rfl rfl rfl rfl rfl

end Cert.ReferenceIdeal.RefStages

end
-- ==== Proof.RefNetwork.lean ====
/-
  The reference computes the network.

  Its three dense stages are the shared dense stage of the features before them (read index by index elsewhere),
  its host stages are the shared ones; composed, its result stage is the network of the arguments.
-/
import proofs.«146366_j65000035058580_1_alg».proof.Proof.RefAggregate
import proofs.«146366_j65000035058580_1_alg».proof.Proof.RefStages
import proofs.«146366_j65000035058580_1_alg».proof.Proof.Network

noncomputable section

namespace Cert.ReferenceIdeal.RefNetwork

open Cert.ReferenceIdeal Cert.ReferenceIdeal.Read Cert.KernelIdeal.HostStages Cert.KernelIdeal.Network Idealize.ShloMosaic

variable (x0 : (⟨S50000x100, .f32⟩ : BufTy).Contents (Elt Ideal))
    (x1 : (⟨S2x800000, .i32⟩ : BufTy).Contents (Elt Ideal))
    (x2 : (⟨S800000, .f32⟩ : BufTy).Contents (Elt Ideal))
    (x3 : (⟨S50000, .i32⟩ : BufTy).Contents (Elt Ideal))
    (x4 : (⟨S100, .f32⟩ : BufTy).Contents (Elt Ideal))
    (x5 : (⟨S100, .f32⟩ : BufTy).Contents (Elt Ideal))
    (x6 : (⟨S128, .f32⟩ : BufTy).Contents (Elt Ideal))
    (x7 : (⟨S128, .f32⟩ : BufTy).Contents (Elt Ideal))
    (x8 : (⟨S128, .f32⟩ : BufTy).Contents (Elt Ideal))
    (x9 : (⟨S128, .f32⟩ : BufTy).Contents (Elt Ideal))
    (x10 : (⟨S100x128, .f32⟩ : BufTy).Contents (Elt Ideal))
    (x11 : (⟨S128, .f32⟩ : BufTy).Contents (Elt Ideal))
    (x12 : (⟨S128x128, .f32⟩ : BufTy).Contents (Elt Ideal))
    (x13 : (⟨S128, .f32⟩ : BufTy).Contents (Elt Ideal))
    (x14 : (⟨S128x128, .f32⟩ : BufTy).Contents (Elt Ideal))
    (x15 : (⟨S128, .f32⟩ : BufTy).Contents (Elt Ideal))
    (x16 : (⟨S128x2, .f32⟩ : BufTy).Contents (Elt Ideal))
    (x17 : (⟨S2, .f32⟩ : BufTy).Contents (Elt Ideal))

/-- The reference's result stage is the network of the arguments. -/
theorem result_eq : val_main_v144 (F := Ideal) x0 x1 x2 x3 x4 x5 x6 x7 x8 x9 x10 x11 x12 x13 x14 x15 x16 x17 = net x0 x1 x2 x3 x4 x5 x6 x7 x8 x9 x10 x11 x12 x13 x14 x15 x16 x17 := by
  rw [RefAggregate.out_eq, RefAggregate.agg_third, RefStages.stage2, RefAggregate.agg_second, RefStages.stage1,
    RefAggregate.agg_first, RefStages.stage0]
  rfl

end Cert.ReferenceIdeal.RefNetwork

end
-- ==== Proof.lean ====
/-
  The certificate of a three-layer graph network.

  Each layer normalises every node's feature row, projects it through a weight matrix, gathers the projected rows
  along the edges, scales them by the edge weights, sums them into the destination nodes, adds a bias and clamps
  below at zero; at the end the node features are averaged per graph and passed through a linear classifier.
  The kernel's program does each normalise-and-project step in a region of ten row tiles (rounding the operands of
  its matrix unit to a narrower format, which on the extended reals is the identity) and the rest by host
  operations; the reference does everything by host operations. On the extended reals both end with the same
  function of the arguments in the result buffer, `Network.net`:
  * the kernel: every weakly fair execution ends with each surviving buffer at the fold of the program's segments
    (`Run.run_all`); the fold, read back, is the network (`Fold.result`), each region's output array being the dense
    stage of its inputs (`Blocks.final0/1/2`: a tile's entry from `TileEntry`, the tiles covering the array);
  * the reference: its run ends at its operations' composed term, whose stages are the shared dense stage
    (`RefStages`) and the shared host stages (`RefAggregate`), so it is the network too (`RefNetwork.result_eq`).
  No law of arithmetic joins the two sides — the operations agree one by one in the same order — so the
  precondition is never opened. The three frames are the programs' runs with the result forgotten; the kernel's
  idealization rewrote nothing, so its preservation claim is trivial.
-/
import proofs.«146366_j65000035058580_1_alg».proof.Defs
import proofs.«146366_j65000035058580_1_alg».proof.Proof.Gen.Kernel
import proofs.«146366_j65000035058580_1_alg».proof.Proof.Gen.Kernel.Skeleton
import proofs.«146366_j65000035058580_1_alg».proof.Proof.Gen.Kernel.Launch
import proofs.«146366_j65000035058580_1_alg».proof.Proof.Gen.Kernel.Points
import proofs.«146366_j65000035058580_1_alg».proof.Proof.Gen.Kernel.Frame
import proofs.«146366_j65000035058580_1_alg».proof.Proof.Gen.KernelIdeal
import proofs.«146366_j65000035058580_1_alg».proof.Proof.Gen.KernelIdeal.Skeleton
import proofs.«146366_j65000035058580_1_alg».proof.Proof.Gen.KernelIdeal.Launch
import proofs.«146366_j65000035058580_1_alg».proof.Proof.Gen.KernelIdeal.Points
import proofs.«146366_j65000035058580_1_alg».proof.Proof.Gen.KernelIdeal.Frame
import proofs.«146366_j65000035058580_1_alg».proof.Proof.Gen.ReferenceIdeal
import proofs.«146366_j65000035058580_1_alg».proof.Proof.Gen.ReferenceIdeal.Run
import proofs.«146366_j65000035058580_1_alg».proof.Proof.Gen.ReferenceIdeal.Read
import proofs.«146366_j65000035058580_1_alg».proof.Proof.Gen.Pre_finite_inputs
import proofs.«146366_j65000035058580_1_alg».proof.Proof.KernelRun
import proofs.«146366_j65000035058580_1_alg».proof.Proof.KernelFold
import proofs.«146366_j65000035058580_1_alg».proof.Proof.Blocks0
import proofs.«146366_j65000035058580_1_alg».proof.Proof.Blocks1
import proofs.«146366_j65000035058580_1_alg».proof.Proof.Blocks2
import proofs.«146366_j65000035058580_1_alg».proof.Proof.RefNetwork
import Idealize.ShloMosaic.Adequacy
import Idealize.ShloMosaic.Init

noncomputable section

namespace Cert.Proof

open Idealize.ShloMosaic Idealize.SL.Sem

/-- Each region's output array is the dense stage of the arrays the region finds. -/
theorem dense : Cert.KernelIdeal.Fold.Dense :=
  ⟨Cert.KernelIdeal.Blocks.final0, Cert.KernelIdeal.Blocks.final1, Cert.KernelIdeal.Blocks.final2⟩

theorem frame_kernel : Cert.frame_Kernel := fun m ρ _ => Cert.Kernel.Gen.frame m ρ

theorem frame_kernelIdeal : Cert.frame_KernelIdeal := fun m ρ _ => Cert.KernelIdeal.Gen.frame m ρ

/-- The reference's run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the network of the arguments in the result buffer. -/
theorem algebraic : Cert.algebraic_KernelIdeal_ReferenceIdeal := by
  intro m ρ m' ρ' _ hagree
  refine ⟨fun c => Cert.KernelIdeal.Network.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)), ?_, ?_⟩
  · exact (θ_run Cert.KernelIdeal.defs _ _).mono (fun r h c => ⟨
      (h c _ (Cert.KernelIdeal.Gen.mem_uc Cert.KernelIdeal.main_v72 (by decide))).trans (Cert.KernelIdeal.Fold.result m ρ c dense),
      (h c _ (Cert.KernelIdeal.Gen.mem_uc Cert.KernelIdeal.main_arg0 (by decide))).trans (Cert.KernelIdeal.Gen.W11_main_arg0 m ρ c),
      (h c _ (Cert.KernelIdeal.Gen.mem_uc Cert.KernelIdeal.main_arg1 (by decide))).trans (Cert.KernelIdeal.Gen.W11_main_arg1 m ρ c),
      (h c _ (Cert.KernelIdeal.Gen.mem_uc Cert.KernelIdeal.main_arg2 (by decide))).trans (Cert.KernelIdeal.Gen.W11_main_arg2 m ρ c),
      (h c _ (Cert.KernelIdeal.Gen.mem_uc Cert.KernelIdeal.main_arg3 (by decide))).trans (Cert.KernelIdeal.Gen.W11_main_arg3 m ρ c),
      (h c _ (Cert.KernelIdeal.Gen.mem_uc Cert.KernelIdeal.main_arg4 (by decide))).trans (Cert.KernelIdeal.Gen.W11_main_arg4 m ρ c),
      (h c _ (Cert.KernelIdeal.Gen.mem_uc Cert.KernelIdeal.main_arg5 (by decide))).trans (Cert.KernelIdeal.Gen.W11_main_arg5 m ρ c),
      (h c _ (Cert.KernelIdeal.Gen.mem_uc Cert.KernelIdeal.main_arg6 (by decide))).trans (Cert.KernelIdeal.Gen.W11_main_arg6 m ρ c),
      (h c _ (Cert.KernelIdeal.Gen.mem_uc Cert.KernelIdeal.main_arg7 (by decide))).trans (Cert.KernelIdeal.Gen.W11_main_arg7 m ρ c),
      (h c _ (Cert.KernelIdeal.Gen.mem_uc Cert.KernelIdeal.main_arg8 (by decide))).trans (Cert.KernelIdeal.Gen.W11_main_arg8 m ρ c),
      (h c _ (Cert.KernelIdeal.Gen.mem_uc Cert.KernelIdeal.main_arg9 (by decide))).trans (Cert.KernelIdeal.Gen.W11_main_arg9 m ρ c),
      (h c _ (Cert.KernelIdeal.Gen.mem_uc Cert.KernelIdeal.main_arg10 (by decide))).trans (Cert.KernelIdeal.Gen.W11_main_arg10 m ρ c),
      (h c _ (Cert.KernelIdeal.Gen.mem_uc Cert.KernelIdeal.main_arg11 (by decide))).trans (Cert.KernelIdeal.Gen.W11_main_arg11 m ρ c),
      (h c _ (Cert.KernelIdeal.Gen.mem_uc Cert.KernelIdeal.main_arg12 (by decide))).trans (Cert.KernelIdeal.Gen.W11_main_arg12 m ρ c),
      (h c _ (Cert.KernelIdeal.Gen.mem_uc Cert.KernelIdeal.main_arg13 (by decide))).trans (Cert.KernelIdeal.Gen.W11_main_arg13 m ρ c),
      (h c _ (Cert.KernelIdeal.Gen.mem_uc Cert.KernelIdeal.main_arg14 (by decide))).trans (Cert.KernelIdeal.Gen.W11_main_arg14 m ρ c),
      (h c _ (Cert.KernelIdeal.Gen.mem_uc Cert.KernelIdeal.main_arg15 (by decide))).trans (Cert.KernelIdeal.Gen.W11_main_arg15 m ρ c),
      (h c _ (Cert.KernelIdeal.Gen.mem_uc Cert.KernelIdeal.main_arg16 (by decide))).trans (Cert.KernelIdeal.Gen.W11_main_arg16 m ρ c),
      (h c _ (Cert.KernelIdeal.Gen.mem_uc Cert.KernelIdeal.main_arg17 (by decide))).trans (Cert.KernelIdeal.Gen.W11_main_arg17 m ρ c)⟩)
      (Cert.KernelIdeal.Run.run_all (F := Ideal) m ρ)
  · refine (θ_run Cert.ReferenceIdeal.defs _ _).mono (fun r h c => ⟨?_, (h c).2⟩) (Cert.ReferenceIdeal.Value.run (F := Ideal) m' ρ')
    obtain ⟨e0, e1, e2, e3, e4, e5, e6, e7, e8, e9, e10, e11, e12, e13, e14, e15, e16, e17⟩ := hagree c
    rw [(h c).1, Cert.ReferenceIdeal.Read.val_main_v144_eq, Cert.ReferenceIdeal.RefNetwork.result_eq, e0, e1, e2, e3, e4, e5, e6, e7, e8, e9, e10, e11, e12, e13, e14, e15, e16, e17]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
